-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S64 .f32) (main_arg6 : FVec F S64x2 .f32) (main_arg7 : FVec F S2 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg6
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x16 .f32) (main_arg3 : FVec F S16 .f32) (main_arg4 : FVec F S16x64 .f32) (main_arg5 : FVec F S64 .f32) (main_arg6 : FVec F S64x2 .f32) (main_arg7 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S10000x128 : Shape := ⟨2, ![10000, 128]⟩
abbrev S10000x1 : Shape := ⟨2, ![10000, 1]⟩
abbrev S10000x16 : Shape := ⟨2, ![10000, 16]⟩
abbrev S3300000x16 : Shape := ⟨2, ![3300000, 16]⟩
abbrev S1x16 : Shape := ⟨2, ![1, 16]⟩
abbrev S100000x64 : Shape := ⟨2, ![100000, 64]⟩
abbrev S10000x64 : Shape := ⟨2, ![10000, 64]⟩
abbrev S3300000x64 : Shape := ⟨2, ![3300000, 64]⟩
abbrev S1x64 : Shape := ⟨2, ![1, 64]⟩
abbrev S1x2 : Shape := ⟨2, ![1, 2]⟩
abbrev S10x1x2 : Shape := ⟨3, ![10, 1, 2]⟩
abbrev S1x1x2 : Shape := ⟨3, ![1, 1, 2]⟩
abbrev S10000x2 : Shape := ⟨2, ![10000, 2]⟩
abbrev S1 : Shape := ⟨1, ![1]⟩
abbrev S1x1 : Shape := ⟨2, ![1, 1]⟩

abbrev nBuf : Space → Nat
  | .hbm => 105
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x16, .bf16⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x16, .bf16⟩
  | .hbm, ⟨49, _⟩ => ⟨S3300000x16, .f32⟩
  | .hbm, ⟨50, _⟩ => ⟨S3300000x1, .f32⟩
  | .hbm, ⟨51, _⟩ => ⟨S3300000x16, .f32⟩
  | .hbm, ⟨52, _⟩ => ⟨S3300000x16, .f32⟩
  | .hbm, ⟨53, _⟩ => ⟨S_, .f32⟩
  | .hbm, ⟨54, _⟩ => ⟨S100000x16, .f32⟩
  | .hbm, ⟨55, _⟩ => ⟨S3300000x1, .i32⟩
  | .hbm, ⟨56, _⟩ => ⟨S100000x16, .f32⟩
  | .hbm, ⟨57, _⟩ => ⟨S1x16, .f32⟩
  | .hbm, ⟨58, _⟩ => ⟨S100000x64, .bf16⟩
  | .hbm, ⟨59, _⟩ => ⟨S_, .i32⟩
  | .hbm, ⟨60, _⟩ => ⟨S3300000, .i32⟩
  | .hbm, ⟨61, _⟩ => ⟨S3300000, .i1⟩
  | .hbm, ⟨62, _⟩ => ⟨S_, .i32⟩
  | .hbm, ⟨63, _⟩ => ⟨S3300000, .i32⟩
  | .hbm, ⟨64, _⟩ => ⟨S3300000, .i32⟩
  | .hbm, ⟨65, _⟩ => ⟨S3300000, .i32⟩
  | .hbm, ⟨66, _⟩ => ⟨S3300000x1, .i32⟩
  | .hbm, ⟨67, _⟩ => ⟨S3300000, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x64, .bf16⟩
  | .hbm, ⟨77, _⟩ => ⟨S3300000x64, .f32⟩
  | .hbm, ⟨78, _⟩ => ⟨S3300000x1, .f32⟩
  | .hbm, ⟨79, _⟩ => ⟨S3300000x64, .f32⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S1x64, .f32⟩
  | .hbm, ⟨86, _⟩ => ⟨S1x2, .f32⟩
  | .hbm, ⟨87, _⟩ => ⟨S10x1x2, .f32⟩
  | .hbm, ⟨88, _⟩ => ⟨S_, .f32⟩
  | .hbm, ⟨89, _⟩ => ⟨S1x2, .f32⟩
  | .hbm, ⟨90, _⟩ => ⟨S_, .f32⟩
  | .hbm, ⟨91, _⟩ => ⟨S1, .f32⟩
  | .hbm, ⟨92, _⟩ => ⟨S_, .f32⟩
  | .hbm, ⟨93, _⟩ => ⟨S1, .f32⟩
  | .hbm, ⟨94, _⟩ => ⟨S1, .f32⟩
  | .hbm, ⟨95, _⟩ => ⟨S1x1, .f32⟩
  | .hbm, ⟨96, _⟩ => ⟨S1x2, .f32⟩
  | .hbm, ⟨97, _⟩ => ⟨S1x2, .f32⟩
  | .hbm, ⟨98, _⟩ => ⟨S1x2, .f32⟩
  | .hbm, ⟨99, _⟩ => ⟨S_, .f32⟩
  | .hbm, ⟨100, _⟩ => ⟨S1, .f32⟩
  | .hbm, ⟨101, _⟩ => ⟨S1x1, .f32⟩
  | .hbm, ⟨102, _⟩ => ⟨S1x1, .f32⟩
  | .hbm, ⟨103, _⟩ => ⟨S1x2, .f32⟩
  | .hbm, ⟨104, _⟩ => ⟨S1x2, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x1, .f32⟩
  | .local _ .vmem, ⟨4, _⟩ => ⟨S10000x1, .f32⟩
  | .local _ .vmem, ⟨5, _⟩ => ⟨S10000x16, .bf16⟩
  | .local _ .vmem, ⟨6, _⟩ => ⟨S10000x16, .bf16⟩
  | .local _ .vmem, ⟨7, _⟩ => ⟨S10000x16, .f32⟩
  | .local _ .vmem, ⟨8, _⟩ => ⟨S10000x16, .f32⟩
  | .local _ .vmem, ⟨9, _⟩ => ⟨S1x16, .f32⟩
  | .local _ .vmem, ⟨10, _⟩ => ⟨S16x64, .f32⟩
  | .local _ .vmem, ⟨11, _⟩ => ⟨S10000x1, .f32⟩
  | .local _ .vmem, ⟨12, _⟩ => ⟨S10000x1, .f32⟩
  | .local _ .vmem, ⟨13, _⟩ => ⟨S10000x64, .bf16⟩
  | .local _ .vmem, ⟨14, _⟩ => ⟨S10000x64, .bf16⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S64x2, .f32⟩
  | .local _ .vmem, ⟨19, _⟩ => ⟨S1x2, .f32⟩
  | .local _ .vmem, ⟨20, _⟩ => ⟨S1x1x2, .f32⟩
  | .local _ .vmem, ⟨21, _⟩ => ⟨S1x1x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_call1_cst : Ref sig .tc := ⟨.hbm, 90, rfl⟩
abbrev main_call1_v0 : Ref sig .tc := ⟨.hbm, 91, rfl⟩
abbrev main_call1_cst_0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_cst_1 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_v65 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  packedbf16_S10000x16_S10000x16_0_0 : (Rect.unit (s := S10000x16) ![0, 0] S10000x16.size inb_S10000x16_S10000x16_0_0).PackedRows (EltTy.packing .bf16)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x64_S16x64_0_0 : ∀ a, (![0, 0] : Fin 2 → Nat) a + S16x64.size a ≤ S16x64.size a
  h_S16x64 : 0 < S16x64.numel
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S2_S1x2 : S2.ShapeCasts S1x2
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S2 : S10000x2.Reduces [0] S2
  shapeCasts_S1x2_S1x1x2 : S1x2.ShapeCasts S1x1x2
  inb_S1x1x2_S1x1x2_0_0_0 : ∀ a, (![0, 0, 0] : Fin 3 → Nat) a + S1x1x2.size a ≤ S1x1x2.size a
  h_S1x1x2 : 0 < S1x1x2.numel
  reducesTo_S10x1x2_S1x2_d0 : S10x1x2.ReducesTo [0] S1x2
  h_S_ : 0 < S_.numel
  reducesTo_S1x2_S1_d1 : S1x2.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  scatter_S100000_S3300000x1_S3300000_n_0_0_1_wf : ScatterDims.WF S100000 S3300000x1 S3300000 [] [0] [0] 1
  dot_S10000x128_S128x16_S10000x16_1_0_0_1_n_n_wf : DotDims.WF S10000x128 S128x16 S10000x16 [1] [0] [0] [1] [] []
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x64_S10000x64_1_0_0_1_n_n_wf : DotDims.WF S10000x16 S16x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S100000x16.size a
  hwx0_3 : ∀ i : grid0.Coords, EltTy.bits .bf16 = 32 ∨ (Rect.block (s := S100000x16) S10000x16.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .bf16 = 32 ∨ (Rect.block (s := S100000x64) S10000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2.size a ≤ S64x2.size a
  hwx2_2 : ∀ i : grid2.Coords, EltTy.bits .f32 = 32 ∨ (Rect.block (s := S64x2) S64x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x2.size a ≤ S10x1x2.size a
  hwx2_4 : ∀ i : grid2.Coords, EltTy.bits .f32 = 32 ∨ (Rect.block (s := S10x1x2) S1x1x2.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v39) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v60) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x1x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩
abbrev S100000x2 : Shape := ⟨2, ![100000, 2]⟩
abbrev S1x2 : Shape := ⟨2, ![1, 2]⟩
abbrev S1 : Shape := ⟨1, ![1]⟩
abbrev S1x1 : Shape := ⟨2, ![1, 1]⟩

abbrev nBuf : Space → Nat
  | .hbm => 149
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x64, .f32⟩
  | 5 => ⟨S64, .f32⟩
  | 6 => ⟨S64x2, .f32⟩
  | 7 => ⟨S2, .f32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S100000x16, .f32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x64, .f32⟩
  | 72 => ⟨S_, .f32⟩
  | 73 => ⟨S3300000, .f32⟩
  | 74 => ⟨S_, .f32⟩
  | 75 => ⟨S100000, .f32⟩
  | 76 => ⟨S3300000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S3300000, .i32⟩
  | 88 => ⟨S3300000, .i1⟩
  | 89 => ⟨S_, .i32⟩
  | 90 => ⟨S3300000, .i32⟩
  | 91 => ⟨S3300000, .i32⟩
  | 92 => ⟨S3300000, .i32⟩
  | 93 => ⟨S3300000x1, .i32⟩
  | 94 => ⟨S3300000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S3300000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x64, .f32⟩
  | 114 => ⟨S3300000x1, .f32⟩
  | 115 => ⟨S3300000x64, .f32⟩
  | 116 => ⟨S3300000x64, .f32⟩
  | 117 => ⟨S_, .f32⟩
  | 118 => ⟨S100000x64, .f32⟩
  | 119 => ⟨S3300000x1, .i32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S100000x2, .f32⟩
  | _ => ⟨S100000x128, .f32⟩

abbrev hbmTy0_1 (i : Nat) : BufTy := match i % 128 with
  | 0 => ⟨S1x2, .f32⟩
  | 1 => ⟨S100000x2, .f32⟩
  | 2 => ⟨S100000x2, .f32⟩
  | 3 => ⟨S_, .f32⟩
  | 4 => ⟨S2, .f32⟩
  | 5 => ⟨S1x2, .f32⟩
  | 6 => ⟨S_, .f32⟩
  | 7 => ⟨S1, .f32⟩
  | 8 => ⟨S_, .f32⟩
  | 9 => ⟨S1, .f32⟩
  | 10 => ⟨S1, .f32⟩
  | 11 => ⟨S1x1, .f32⟩
  | 12 => ⟨S1x2, .f32⟩
  | 13 => ⟨S1x2, .f32⟩
  | 14 => ⟨S1x2, .f32⟩
  | 15 => ⟨S_, .f32⟩
  | 16 => ⟨S1, .f32⟩
  | 17 => ⟨S1x1, .f32⟩
  | 18 => ⟨S1x1, .f32⟩
  | 19 => ⟨S1x2, .f32⟩
  | 20 => ⟨S1x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_20 : Ref sig .tc := ⟨.hbm, 131, rfl⟩
abbrev main_v93 : Ref sig .tc := ⟨.hbm, 132, rfl⟩
abbrev main_v94 : Ref sig .tc := ⟨.hbm, 133, rfl⟩
abbrev main_call4_cst : Ref sig .tc := ⟨.hbm, 134, rfl⟩
abbrev main_call4_v0 : Ref sig .tc := ⟨.hbm, 135, rfl⟩
abbrev main_call4_cst_0 : Ref sig .tc := ⟨.hbm, 136, rfl⟩
abbrev main_call4_v1 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_v6 : Ref sig .tc := ⟨.hbm, 142, rfl⟩
abbrev main_call4_cst_1 : Ref sig .tc := ⟨.hbm, 143, rfl⟩
abbrev main_call4_v7 : Ref sig .tc := ⟨.hbm, 144, rfl⟩
abbrev main_call4_v8 : Ref sig .tc := ⟨.hbm, 145, rfl⟩
abbrev main_call4_v9 : Ref sig .tc := ⟨.hbm, 146, rfl⟩
abbrev main_call4_v10 : Ref sig .tc := ⟨.hbm, 147, rfl⟩
abbrev main_v95 : Ref sig .tc := ⟨.hbm, 148, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S2_d0 : S100000x2.ReducesTo [0] S2
  h_S_ : 0 < S_.numel
  reducesTo_S1x2_S1_d1 : S1x2.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x2_S100000x2_1_0_0_1_n_n_wf : DotDims.WF S100000x64 S64x2 S100000x2 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KRun.lean ====
/-
  The idealized kernel's run with its result named. The program is ten segments: stretches of host operations and the
  three kernel launches. The buffer contents at each segment boundary are a fold from the launch memory; every weakly
  fair execution terminates, nothing faulting, in a state whose unscoped buffers hold the last boundary's contents. So
  the result buffer ends at the last boundary's contents read at the result's reference, and the arguments end as
  launched. What those contents ARE, as a function of the arguments, is read off the fold in the modules that follow.
-/
import proofs.«126548_j70145405878842_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    segment boundary's contents at the result's reference, and each argument holds what it was launched with. -/
theorem run_result : θ_run defs (onTc (τ := τ) (main (F := F))) ⟨m, fun _ => 0, ρ⟩ (fun r => ∀ c : Dev nD,
      r.2.mem ((c.tc : Thread nD τ).loc main_v65) = W10 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v65 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.KRun

end
-- ==== Proof.KVal.lean ====
/-
  The host side of the idealized kernel program, as pure functions: what each stretch of host operations between the
  kernel launches computes from the arrays it is given. `e` is the edge list (two rows of node numbers).

  * `rowK e`, `colK e`: the senders and the receivers of all edges, the given ones followed by one self loop per node.
  * `degK e`: a node's degree, the number of edges it receives (a scatter-add of ones); `dinvK e`: its inverse square
    root where the degree is positive and `0` elsewhere; `dcolK e`: the same as a column.
  * `normK v`: node numbers as start indices for a gather (a negative number counted from the end, as a column).
  * `msgsK H e`: per edge, the sender's row of `H` (already scaled by the sender's factor) times the receiver's factor;
    `aggK H e`: per node, the sum of the messages it receives (a scatter-add into zeros).
  * `pooledK P`: the sum of the ten per-tile partial sums; `lsmK p`: the log-softmax of the pooled row.
-/
import proofs.«126548_j70145405878842_2_alg».proof.Proof.Gen.KernelIdeal

noncomputable section

namespace Cert.KernelIdeal.KVal

open Idealize.ShloMosaic Idealize.ShloMosaic.TcCoe Idealize.SL.Sem
open Cert.KernelIdeal Cert.KernelIdeal.Facts₀ Cert.KernelIdeal.Facts

variable {F : FTy → Type} [FloatOps F]

def rowK (e : (⟨S2x3200000, .i32⟩ : BufTy).Contents (Elt F)) : (⟨S3300000, .i32⟩ : BufTy).Contents (Elt F) :=
  concatenate S3300000 0 [⟨S3200000, shapeCast _ (extractStridedSlice S1x3200000 ![0, 0] e slices_S2x3200000_S1x3200000_0_0) shapeCasts_S1x3200000_S3200000⟩, ⟨S100000, iotaInDim S100000 32 0⟩] concatenates_S3200000_S100000_S3300000_d0

def colK (e : (⟨S2x3200000, .i32⟩ : BufTy).Contents (Elt F)) : (⟨S3300000, .i32⟩ : BufTy).Contents (Elt F) :=
  concatenate S3300000 0 [⟨S3200000, shapeCast _ (extractStridedSlice S1x3200000 ![1, 0] e slices_S2x3200000_S1x3200000_1_0) shapeCasts_S1x3200000_S3200000⟩, ⟨S100000, iotaInDim S100000 32 0⟩] concatenates_S3200000_S100000_S3300000_d0

def degK (e : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32))
    (broadcastInDim S3300000x1 ![0] bcast_S3300000_S3300000x1_0 (colK (F := F) e)) (broadcastInDim S3300000 ![] bcast_S_S3300000 (constant S_ .f32 0x3F800000#32))

def dinvK (e : (⟨S2x3200000, .i32⟩ : BufTy).Contents (Elt F)) : (⟨S100000, .f32⟩ : BufTy).Contents (Elt F) :=
  select (cmpf (F := F) .ogt (degK (F := F) e) (broadcastInDim S100000 ![] bcast_S_S100000 (constant S_ .f32 0x00000000#32)))
    (Host.rsqrt (degK (F := F) e)) (broadcastInDim S100000 ![] bcast_S_S100000 (id (constant S_ .f32 0x00000000#32)))

def dcolK (e : (⟨S2x3200000, .i32⟩ : BufTy).Contents (Elt F)) : (⟨S100000x1, .f32⟩ : BufTy).Contents (Elt F) :=
  shapeCast _ (dinvK (F := F) e) shapeCasts_S100000_S100000x1

def normK (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

def msgs16K (H : (⟨S100000x16, .bf16⟩ : BufTy).Contents (Elt F)) (e : (⟨S2x3200000, .i32⟩ : BufTy).Contents (Elt F)) :
    (⟨S3300000x16, .f32⟩ : BufTy).Contents (Elt F) :=
  mulf (extf .f32 (Host.gather gather_S100000x16_S3300000x1_S3300000x16_1_0_n_n_0_1_116 H (normK (F := F) (rowK (F := F) e))) bitsLt_bf16_f32)
    (broadcastInDim S3300000x16 ![0, 1] bcast_S3300000x1_S3300000x16_0_1 (broadcastInDim S3300000x1 ![0] bcast_S3300000_S3300000x1_0
      (Host.gather gather_S100000_S3300000x1_S3300000_n_0_n_n_0_1_1 (dinvK (F := F) e) (normK (F := F) (colK (F := F) e)))))

def agg16K (H : (⟨S100000x16, .bf16⟩ : BufTy).Contents (Elt F)) (e : (⟨S2x3200000, .i32⟩ : BufTy).Contents (Elt F)) :
    (⟨S100000x16, .f32⟩ : BufTy).Contents (Elt F) :=
  Host.scatterAdd scatter_S100000x16_S3300000x1_S3300000x16_1_0_0_1 (broadcastInDim S100000x16 ![] bcast_S_S100000x16 (constant S_ .f32 0x00000000#32))
    (broadcastInDim S3300000x1 ![0] bcast_S3300000_S3300000x1_0 (colK (F := F) e)) (msgs16K (F := F) H e)

def msgs64K (H : (⟨S100000x64, .bf16⟩ : BufTy).Contents (Elt F)) (e : (⟨S2x3200000, .i32⟩ : BufTy).Contents (Elt F)) :
    (⟨S3300000x64, .f32⟩ : BufTy).Contents (Elt F) :=
  mulf (extf .f32 (Host.gather gather_S100000x64_S3300000x1_S3300000x64_1_0_n_n_0_1_164 H (normK (F := F) (rowK (F := F) e))) bitsLt_bf16_f32)
    (broadcastInDim S3300000x64 ![0, 1] bcast_S3300000x1_S3300000x64_0_1 (broadcastInDim S3300000x1 ![0] bcast_S3300000_S3300000x1_0
      (Host.gather gather_S100000_S3300000x1_S3300000_n_0_n_n_0_1_1 (dinvK (F := F) e) (normK (F := F) (colK (F := F) e)))))

def agg64K (H : (⟨S100000x64, .bf16⟩ : BufTy).Contents (Elt F)) (e : (⟨S2x3200000, .i32⟩ : BufTy).Contents (Elt F)) :
    (⟨S100000x64, .f32⟩ : BufTy).Contents (Elt F) :=
  Host.scatterAdd scatter_S100000x64_S3300000x1_S3300000x64_1_0_0_1 (broadcastInDim S100000x64 ![] bcast_S_S100000x64 (constant S_ .f32 0x00000000#32))
    (broadcastInDim S3300000x1 ![0] bcast_S3300000_S3300000x1_0 (colK (F := F) e)) (msgs64K (F := F) H e)

def pooledK (P : (⟨S10x1x2, .f32⟩ : BufTy).Contents (Elt F)) : (⟨S1x2, .f32⟩ : BufTy).Contents (Elt F) :=
  Host.reduceAdd P (constant S_ .f32 0x00000000#32) reducesTo_S10x1x2_S1x2_d0 h_S_

/-- The pooled row minus its maximum. -/
def lsmShiftK (p : (⟨S1x2, .f32⟩ : BufTy).Contents (Elt F)) : (⟨S1x2, .f32⟩ : BufTy).Contents (Elt F) :=
  subf p (broadcastInDim S1x2 ![0, 1] bcast_S1x1_S1x2_0_1 (broadcastInDim S1x1 ![0] bcast_S1_S1x1_0
    (maximumf (broadcastInDim S1 ![] bcast_S_S1 (constant S_ .f32 0xFF800000#32))
      (Host.reduce FloatOps.maximumf p (constant S_ .f32 0xFF800000#32) reducesTo_S1x2_S1_d1 h_S_))))

def lsmK (p : (⟨S1x2, .f32⟩ : BufTy).Contents (Elt F)) : (⟨S1x2, .f32⟩ : BufTy).Contents (Elt F) :=
  subf (lsmShiftK (F := F) p) (broadcastInDim S1x2 ![0, 1] bcast_S1x1_S1x2_0_1 (Host.log (broadcastInDim S1x1 ![0] bcast_S1_S1x1_0
    (Host.reduceAdd (Host.exp (lsmShiftK (F := F) p)) (constant S_ .f32 0x00000000#32) reducesTo_S1x2_S1_d1 h_S_))))

end Cert.KernelIdeal.KVal

end
-- ==== Proof.KFold.lean ====
/-
  The buffer contents at each boundary between the segments of the idealized kernel program, read as functions of the
  arguments. The program is: host operations (the edge lists, the degrees and their inverse square roots), the first
  kernel, host operations (the first message pass), the second kernel, host operations (the second message pass), the
  third kernel, and host operations (the sum of the partial sums and the log-softmax). A stretch of host operations
  changes exactly the buffers its operations write; a kernel launch changes exactly its output array. So every buffer
  a later segment reads is followed back to the segment that wrote it.
-/
import proofs.«126548_j70145405878842_2_alg».proof.Proof.Gen.KernelIdeal.Frame
import proofs.«126548_j70145405878842_2_alg».proof.Proof.KVal

set_option maxRecDepth 16384

noncomputable section

namespace Cert.KernelIdeal.KFold

open Idealize.ShloMosaic Idealize.ShloMosaic.TcCoe Idealize.SL.Sem Idealize.ShloMosaic.StableHlo
open Cert.KernelIdeal Cert.KernelIdeal.Gen Cert.KernelIdeal.KVal

variable {F : FTy → Type} [FloatOps F]
variable (m : (ℓ : Loc nD τ sig) → Buf (Elt F) ℓ) (ρ : Dev nD → PrngReg)

/-! ## Before the first kernel -/

set_option maxHeartbeats 16000000 in
theorem W3_row (c : Dev nD) : W3 m ρ c (Proc.devRef .tc main_v3) = rowK (F := F) (m ((c : Thread nD τ).loc main_arg1)) := by
  after_results_simp <;> rfl

set_option maxHeartbeats 16000000 in
theorem W3_col (c : Dev nD) : W3 m ρ c (Proc.devRef .tc main_v6) = colK (F := F) (m ((c : Thread nD τ).loc main_arg1)) := by
  after_results_simp <;> rfl

set_option maxHeartbeats 16000000 in
theorem W3_dinv (c : Dev nD) : W3 m ρ c (Proc.devRef .tc main_v14) = dinvK (F := F) (m ((c : Thread nD τ).loc main_arg1)) := by
  after_results_simp <;> rfl

set_option maxHeartbeats 16000000 in
theorem W3_dcol (c : Dev nD) : W3 m ρ c (Proc.devRef .tc main_v15) = dcolK (F := F) (m ((c : Thread nD τ).loc main_arg1)) := by
  after_results_simp <;> rfl

set_option maxHeartbeats 16000000 in
theorem W3_arg0 (c : Dev nD) : W3 m ρ c (Proc.devRef .tc main_arg0) = m ((c : Thread nD τ).loc main_arg0) := by
  after_results_simp <;> rfl

set_option maxHeartbeats 16000000 in
theorem W3_arg2 (c : Dev nD) : W3 m ρ c (Proc.devRef .tc main_arg2) = m ((c : Thread nD τ).loc main_arg2) := by
  after_results_simp <;> rfl

set_option maxHeartbeats 16000000 in
theorem W3_arg3 (c : Dev nD) : W3 m ρ c (Proc.devRef .tc main_arg3) = m ((c : Thread nD τ).loc main_arg3) := by
  after_results_simp <;> rfl

set_option maxHeartbeats 16000000 in
theorem W3_arg4 (c : Dev nD) : W3 m ρ c (Proc.devRef .tc main_arg4) = m ((c : Thread nD τ).loc main_arg4) := by
  after_results_simp <;> rfl

set_option maxHeartbeats 16000000 in
theorem W3_arg5 (c : Dev nD) : W3 m ρ c (Proc.devRef .tc main_arg5) = m ((c : Thread nD τ).loc main_arg5) := by
  after_results_simp <;> rfl

set_option maxHeartbeats 16000000 in
theorem W3_arg6 (c : Dev nD) : W3 m ρ c (Proc.devRef .tc main_arg6) = m ((c : Thread nD τ).loc main_arg6) := by
  after_results_simp <;> rfl

set_option maxHeartbeats 16000000 in
theorem W3_arg7 (c : Dev nD) : W3 m ρ c (Proc.devRef .tc main_arg7) = m ((c : Thread nD τ).loc main_arg7) := by
  after_results_simp <;> rfl

/-! ## Across the first kernel: its output array is what the launch leaves, every other buffer is kept -/

theorem W4_out (c : Dev nD) : W4 m ρ c (Proc.devRef .tc main_v16) = (dat0 (V3 m ρ) c).arrAt 3 cfg0.N := W4_arr m ρ c 3

theorem W4_row (c : Dev nD) : W4 m ρ c (Proc.devRef .tc main_v3) = rowK (F := F) (m ((c : Thread nD τ).loc main_arg1)) :=
  (W4_of_ne m ρ c main_v3 (by decide)).trans (W3_row m ρ c)
theorem W4_col (c : Dev nD) : W4 m ρ c (Proc.devRef .tc main_v6) = colK (F := F) (m ((c : Thread nD τ).loc main_arg1)) :=
  (W4_of_ne m ρ c main_v6 (by decide)).trans (W3_col m ρ c)
theorem W4_dinv (c : Dev nD) : W4 m ρ c (Proc.devRef .tc main_v14) = dinvK (F := F) (m ((c : Thread nD τ).loc main_arg1)) :=
  (W4_of_ne m ρ c main_v14 (by decide)).trans (W3_dinv m ρ c)
theorem W4_dcol (c : Dev nD) : W4 m ρ c (Proc.devRef .tc main_v15) = dcolK (F := F) (m ((c : Thread nD τ).loc main_arg1)) :=
  ((W4_arr m ρ c 2).trans (((dat0 (V3 m ρ) c).arrAt_in 2 rfl _).trans (A_eq0 (V3 m ρ) c 2))).trans (W3_dcol m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)

/-! ## The first message pass -/

set_option maxHeartbeats 32000000 in
theorem W5_agg (c : Dev nD) :
    W5 m ρ c (Proc.devRef .tc main_v37) = agg16K (F := F) (W4 m ρ c (Proc.devRef .tc main_v16)) (m ((c : Thread nD τ).loc main_arg1)) := by
  after_results_simp
  rw [W4_col m ρ c, W4_row m ρ c, W4_dinv m ρ c]
  rfl

set_option maxHeartbeats 32000000 in
theorem W5_bias (c : Dev nD) :
    W5 m ρ c (Proc.devRef .tc main_v38) = shapeCast _ (m ((c : Thread nD τ).loc main_arg3)) Facts₀.shapeCasts_S16_S1x16 := by
  after_results_simp
  rw [W4_arg3 m ρ c]
  rfl

set_option maxHeartbeats 32000000 in
theorem W5_row (c : Dev nD) : W5 m ρ c (Proc.devRef .tc main_v3) = rowK (F := F) (m ((c : Thread nD τ).loc main_arg1)) := by
  after_results_simp
  exact W4_row m ρ c
set_option maxHeartbeats 32000000 in
theorem W5_col (c : Dev nD) : W5 m ρ c (Proc.devRef .tc main_v6) = colK (F := F) (m ((c : Thread nD τ).loc main_arg1)) := by
  after_results_simp
  exact W4_col m ρ c
set_option maxHeartbeats 32000000 in
theorem W5_dinv (c : Dev nD) : W5 m ρ c (Proc.devRef .tc main_v14) = dinvK (F := F) (m ((c : Thread nD τ).loc main_arg1)) := by
  after_results_simp
  exact W4_dinv m ρ c
set_option maxHeartbeats 32000000 in
theorem W5_dcol (c : Dev nD) : W5 m ρ c (Proc.devRef .tc main_v15) = dcolK (F := F) (m ((c : Thread nD τ).loc main_arg1)) := by
  after_results_simp
  exact W4_dcol m ρ c
set_option maxHeartbeats 32000000 in
theorem W5_arg4 (c : Dev nD) : W5 m ρ c (Proc.devRef .tc main_arg4) = m ((c : Thread nD τ).loc main_arg4) := by
  after_results_simp
  exact W4_arg4 m ρ c
set_option maxHeartbeats 32000000 in
theorem W5_arg5 (c : Dev nD) : W5 m ρ c (Proc.devRef .tc main_arg5) = m ((c : Thread nD τ).loc main_arg5) := by
  after_results_simp
  exact W4_arg5 m ρ c
set_option maxHeartbeats 32000000 in
theorem W5_arg6 (c : Dev nD) : W5 m ρ c (Proc.devRef .tc main_arg6) = m ((c : Thread nD τ).loc main_arg6) := by
  after_results_simp
  exact W4_arg6 m ρ c
set_option maxHeartbeats 32000000 in
theorem W5_arg7 (c : Dev nD) : W5 m ρ c (Proc.devRef .tc main_arg7) = m ((c : Thread nD τ).loc main_arg7) := by
  after_results_simp
  exact W4_arg7 m ρ c

/-! ## Across the second kernel -/

theorem W6_out (c : Dev nD) : W6 m ρ c (Proc.devRef .tc main_v39) = (dat1 (V5 m ρ) c).arrAt 4 cfg1.N := W6_arr m ρ c 4

theorem W6_row (c : Dev nD) : W6 m ρ c (Proc.devRef .tc main_v3) = rowK (F := F) (m ((c : Thread nD τ).loc main_arg1)) :=
  (W6_of_ne m ρ c main_v3 (by decide)).trans (W5_row m ρ c)
theorem W6_col (c : Dev nD) : W6 m ρ c (Proc.devRef .tc main_v6) = colK (F := F) (m ((c : Thread nD τ).loc main_arg1)) :=
  (W6_of_ne m ρ c main_v6 (by decide)).trans (W5_col m ρ c)
theorem W6_dinv (c : Dev nD) : W6 m ρ c (Proc.devRef .tc main_v14) = dinvK (F := F) (m ((c : Thread nD τ).loc main_arg1)) :=
  (W6_of_ne m ρ c main_v14 (by decide)).trans (W5_dinv m ρ c)
theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)

/-! ## The second message pass -/

set_option maxHeartbeats 32000000 in
theorem W7_agg (c : Dev nD) :
    W7 m ρ c (Proc.devRef .tc main_v60) = agg64K (F := F) (W6 m ρ c (Proc.devRef .tc main_v39)) (m ((c : Thread nD τ).loc main_arg1)) := by
  after_results_simp
  rw [W6_col m ρ c, W6_row m ρ c, W6_dinv m ρ c]
  rfl

set_option maxHeartbeats 32000000 in
theorem W7_bias (c : Dev nD) :
    W7 m ρ c (Proc.devRef .tc main_v61) = shapeCast _ (m ((c : Thread nD τ).loc main_arg5)) Facts₀.shapeCasts_S64_S1x64 := by
  after_results_simp
  rw [W6_arg5 m ρ c]
  rfl

set_option maxHeartbeats 32000000 in
theorem W7_fcbias (c : Dev nD) :
    W7 m ρ c (Proc.devRef .tc main_v62) = shapeCast _ (m ((c : Thread nD τ).loc main_arg7)) Facts₀.shapeCasts_S2_S1x2 := by
  after_results_simp
  rw [W6_arg7 m ρ c]
  rfl

set_option maxHeartbeats 32000000 in
theorem W7_arg6 (c : Dev nD) : W7 m ρ c (Proc.devRef .tc main_arg6) = m ((c : Thread nD τ).loc main_arg6) := by
  after_results_simp
  exact W6_arg6 m ρ c

/-! ## Across the third kernel, and the tail -/

theorem W8_out (c : Dev nD) : W8 m ρ c (Proc.devRef .tc main_v63) = (dat2 (V7 m ρ) c).arrAt 4 cfg2.N := W8_arr m ρ c 4

set_option maxHeartbeats 32000000 in
/-- The result: the log-softmax of the sum of the partial sums the third kernel left. -/
theorem W10_result (c : Dev nD) :
    W10 m ρ c (Proc.devRef .tc main_v65) = lsmK (F := F) (pooledK (F := F) (W8 m ρ c (Proc.devRef .tc main_v63))) := by
  after_results_simp <;> rfl

end Cert.KernelIdeal.KFold

end
-- ==== Proof.Spec.lean ====
/-
  The mathematics of a two-layer graph convolution followed by a pooled linear read-out, as plain functions of
  arrays of extended reals. No program is imported here: both programs' values are later shown to be these functions.

  A layer of the network takes node features `X` (one row per node), a weight matrix `W`, and for every node `n` a
  scale `d n` (the inverse square root of its degree, or `0` for an isolated node). The kernel forms the rows
  `(X·W) n · d n` first ("scaled product") and multiplies by the receiving node's scale on each edge; the reference
  forms `X·W` and multiplies each edge's message by the product of the two scales. The two agree because
  multiplication of extended reals is associative (`edge_message_assoc`); nothing needs to be finite.

  The read-out sums, over all nodes, the rows `relu(A + b)·W + f`; the kernel sums each tile of 10000 consecutive
  nodes first and the ten tile sums afterwards (`tilePool`), the reference sums all rows at once. A sum over
  `10 · 10000` rows in blocks is the sum over the rows (`sum_tiles`): addition of extended reals is commutative and
  associative, again with no finiteness needed.
-/
import Idealize.ShloMosaic.PureOps.Ideal
import Idealize.ShloMosaic.Lib.ValueIdx

noncomputable section

namespace Cert.Gcn

open Idealize.ShloMosaic Idealize.ShloMosaic.ValueIdx

/-- An `a × b` array of extended reals, indexed as the library indexes a rank-2 shape. -/
abbrev Mat (a b : Nat) := (⟨2, ![a, b]⟩ : Shape).Idx → EReal

/-- The float zero both programs compare against and start their sums from (kept as its bit pattern: the same word on
    both sides is never evaluated). -/
abbrev zeroF : EReal := Ideal.ofBits .f32 0x00000000#32

/-- Entry `(n, j)` of `(X·W)` with row `n` scaled by `d n`. -/
def scaledAt {N K D : Nat} (X : Mat N K) (W : Mat K D) (d : Mat N 1) (n : Fin N) (j : Fin D) : EReal :=
  (∑ k : Fin K, X (ix2 n k) * W (ix2 k j)) * d (ix2 n 0)

/-- `(X·W)` with every row scaled by its node's factor: what the first two kernels write, as one whole array. -/
def scaledProduct {N K D : Nat} (X : Mat N K) (W : Mat K D) (d : Mat N 1) : Mat N D :=
  fun i => scaledAt X W d (i 0) (i 1)

/-- `relu(A + b)`, the bias `b` a single row added to every row of `A`. -/
def reluBias {N K : Nat} (A : Mat N K) (b : Mat 1 K) : Mat N K :=
  fun i => max (A i + b (ix2 0 (i 1))) zeroF

/-- Entry `j` of the read-out row of node `n`: `(relu(A + b)·W) n j + f j`. -/
def readoutAt {N K D : Nat} (A : Mat N K) (b : Mat 1 K) (W : Mat K D) (f : Mat 1 D) (n : Fin N) (j : Fin D) : EReal :=
  (∑ k : Fin K, reluBias A b (ix2 n k) * W (ix2 k j)) + f (ix2 0 j)

/-- Row `r` of tile `t` when `T · R` rows are cut into `T` tiles of `R` consecutive rows. -/
def tileRow {T R : Nat} (t : Fin T) (r : Fin R) : Fin (T * R) :=
  ⟨t.val * R + r.val, by
    have h1 := t.isLt; have h2 := r.isLt
    calc t.val * R + r.val < t.val * R + R := by omega
      _ = (t.val + 1) * R := by ring
      _ ≤ T * R := Nat.mul_le_mul_right R h1⟩

/-- The third kernel's whole result: for each tile of `R` rows the sum of its read-out rows, a `T × 1 × D` array. -/
def tilePool {T R K D : Nat} (A : Mat (T * R) K) (b : Mat 1 K) (W : Mat K D) (f : Mat 1 D) :
    (⟨3, ![T, 1, D]⟩ : Shape).Idx → EReal :=
  fun i => ∑ r : Fin R, readoutAt A b W f (tileRow (i 0) r) (i 2)

/-- One edge's message: scaling the sender's row first and then by the receiver's factor is scaling by the product of
    the two factors. -/
theorem edge_message_assoc (h ds dr : EReal) : (h * ds) * dr = h * (ds * dr) := mul_assoc h ds dr

/-- A sum over `T · R` rows is the sum over the tiles of the sums within each tile. -/
theorem sum_tiles {T R : Nat} (g : Fin (T * R) → EReal) :
    ∑ t : Fin T, ∑ r : Fin R, g (tileRow t r) = ∑ n : Fin (T * R), g n := by
  rw [← Finset.sum_product', Finset.univ_product_univ]
  refine Finset.sum_equiv finProdFinEquiv (fun _ => by simp) (fun p _ => ?_)
  refine congrArg g (Fin.ext ?_)
  simp only [tileRow, finProdFinEquiv_apply_val]
  ring

end Cert.Gcn

end
-- ==== Proof.KClosed.lean ====
/-
  The idealized kernel program's result as ONE function of its eight argument arrays: the first kernel's scaled product,
  the first message pass, the second kernel's scaled product of the rectified, biased aggregate, the second message pass,
  the third kernel's per-tile sums of the read-out rows, their sum, and the log-softmax.
-/
import proofs.«126548_j70145405878842_2_alg».proof.Proof.KVal
import proofs.«126548_j70145405878842_2_alg».proof.Proof.Spec

noncomputable section

namespace Cert.KernelIdeal.KVal

open Idealize.ShloMosaic Idealize.ShloMosaic.TcCoe Idealize.SL.Sem
open Cert.KernelIdeal Cert.Gcn

/-- The first layer's aggregate: the messages of the scaled product `(X·W1)·d`, summed per receiving node. -/
def layer1K (x0 : (⟨S100000x128, .f32⟩ : BufTy).Contents (Elt Ideal)) (e : (⟨S2x3200000, .i32⟩ : BufTy).Contents (Elt Ideal))
    (x2 : (⟨S128x16, .f32⟩ : BufTy).Contents (Elt Ideal)) : (⟨S100000x16, .f32⟩ : BufTy).Contents (Elt Ideal) :=
  agg16K (F := Ideal) (scaledProduct x0 x2 (dcolK (F := Ideal) e)) e

/-- The second layer's aggregate, from the first layer's aggregate `a`. -/
def layer2K (a : (⟨S100000x16, .f32⟩ : BufTy).Contents (Elt Ideal)) (e : (⟨S2x3200000, .i32⟩ : BufTy).Contents (Elt Ideal))
    (x3 : (⟨S16, .f32⟩ : BufTy).Contents (Elt Ideal)) (x4 : (⟨S16x64, .f32⟩ : BufTy).Contents (Elt Ideal)) :
    (⟨S100000x64, .f32⟩ : BufTy).Contents (Elt Ideal) :=
  agg64K (F := Ideal) (scaledProduct (reluBias a (shapeCast _ x3 Facts₀.shapeCasts_S16_S1x16)) x4 (dcolK (F := Ideal) e)) e

/-- The per-tile sums of the read-out rows, from the second layer's aggregate `a`. -/
def partialsK (a : (⟨S100000x64, .f32⟩ : BufTy).Contents (Elt Ideal)) (x5 : (⟨S64, .f32⟩ : BufTy).Contents (Elt Ideal))
    (x6 : (⟨S64x2, .f32⟩ : BufTy).Contents (Elt Ideal)) (x7 : (⟨S2, .f32⟩ : BufTy).Contents (Elt Ideal)) :
    (⟨S10x1x2, .f32⟩ : BufTy).Contents (Elt Ideal) :=
  tilePool (T := 10) (R := 10000) a (shapeCast _ x5 Facts₀.shapeCasts_S64_S1x64) x6 (shapeCast _ x7 Facts₀.shapeCasts_S2_S1x2)

/-- The whole program's result. -/
def kernelValue (x0 : (⟨S100000x128, .f32⟩ : BufTy).Contents (Elt Ideal)) (e : (⟨S2x3200000, .i32⟩ : BufTy).Contents (Elt Ideal))
    (x2 : (⟨S128x16, .f32⟩ : BufTy).Contents (Elt Ideal)) (x3 : (⟨S16, .f32⟩ : BufTy).Contents (Elt Ideal))
    (x4 : (⟨S16x64, .f32⟩ : BufTy).Contents (Elt Ideal)) (x5 : (⟨S64, .f32⟩ : BufTy).Contents (Elt Ideal))
    (x6 : (⟨S64x2, .f32⟩ : BufTy).Contents (Elt Ideal)) (x7 : (⟨S2, .f32⟩ : BufTy).Contents (Elt Ideal)) :
    (⟨S1x2, .f32⟩ : BufTy).Contents (Elt Ideal) :=
  lsmK (F := Ideal) (pooledK (F := Ideal) (partialsK (layer2K (layer1K x0 e x2) e x3 x4) x5 x6 x7))

end Cert.KernelIdeal.KVal

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.Region0.lean ====
/-
  The first kernel's result array, as one function of the arrays the region finds.

  The kernel runs over ten points; at point `t` it loads rows `10000·t … 10000·t + 9999` of the features and of the
  scale column and the whole weight matrix, forms the product of the two blocks (the changes of float format are the
  identity on extended reals, and the product accumulates from zero) and scales each row by the row's factor, and
  writes the result back as rows `10000·t … 10000·t + 9999` of the output. So entry `(n, j)` of the output is
  `(∑ k, X (n, k) · W (k, j)) · d n`: the block of point `t` is block `t` of that one function, and the ten blocks
  cover the array (row `r` lies in the block of point `r / 10000`).
-/
import proofs.«126548_j70145405878842_2_alg».proof.Proof.Gen.KernelIdeal.Frame
import proofs.«126548_j70145405878842_2_alg».proof.Proof.Spec
import proofs.«126548_j70145405878842_2_alg».proof.Proof.LibDenseLayers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.DenseLayers

namespace R0

/-- The payload of the first kernel at an entry of its block: row `p` of the left block times column `q` of the
    weights, scaled by the row's factor. The format changes are the identity on extended reals. -/
theorem pay0_apply (x0 : Vec Ideal S10000x128 .f32) (x1 : Vec Ideal S128x16 .f32) (x2 : Vec Ideal S10000x1 .f32)
    (p : Fin 10000) (q : Fin 16) :
    Gen.k0_pay1 x0 x1 x2 (ix2 p q) = (∑ k : Fin 128, x0 (ix2 p k) * x1 (ix2 k q)) * x2 (ix2 p 0) := by
  unfold Gen.k0_pay1
  rw [shapeCast_self]
  refine (mulf_apply _ _ (ix2 p q)).trans ?_
  refine congrArg₂ (· * ·) ?_ ?_
  · exact matmul_rowcol_zero_apply dot_S10000x128_S128x16_S10000x16_1_0_0_1_n_n_wf none _ _ p q
  · exact broadcastTo_column_apply x2 broadcasts_S10000x1_S10000x16 p q

theorem zeroOffsets2 : (![0, 0] : Fin 2 → Nat) = fun _ => 0 := funext fun a => by fin_cases a <;> rfl

/-- The printed index maps over the grid: at point `t` the left block, the scale column and the output block are all
    block `t` along the rows, and the weights' block is the whole matrix. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The scaled product at an index, written out. -/
theorem scaledProduct_apply {N K D : Nat} (X : Cert.Gcn.Mat N K) (W : Cert.Gcn.Mat K D) (d : Cert.Gcn.Mat N 1)
    (i : (⟨2, ![N, D]⟩ : Shape).Idx) :
    Cert.Gcn.scaledProduct X W d i = (∑ k : Fin K, X (ix2 (i 0) k) * W (ix2 k (i 1))) * d (ix2 (i 0) 0) := rfl

variable (V : (c : Dev nD) → (b : Ref sig .tc) → Buf (Elt Ideal) ((c : Thread nD τ).loc b))

/-- The first kernel's whole result as one function of the arrays the region finds. -/
abbrev G0 (c : Dev nD) : S100000x16.Idx → EReal :=
  Cert.Gcn.scaledProduct (V c main_arg0) (V c main_arg2) (V c main_v15)

/-- What point `t` writes back is block `t` of the scaled product of the arrays the region finds. -/
theorem flushed0_eq (c : Dev nD) (t : Fin cfg0.N) :
    (Gen.dat0 (F := Ideal) V c).flushed 3 t = ((cfg0.win 3).blk t).view.read (Elt Ideal) (G0 V c) := by
  show (cfg0.win 3).cut (grid0.coords t) ((Gen.dat0 (F := Ideal) V c).after 3 t) = _
  rw [Gen.after0_3]
  unfold Gen.out0_3
  rw [View.canon_unit_zero zeroOffsets2]
  simp only [View.ld_unit_zero (S := S10000x128) zeroOffsets2, View.ld_unit_zero (S := S128x16) zeroOffsets2, View.ld_unit_zero (S := S10000x1) zeroOffsets2]
  obtain ⟨e00, e01, e10, e11, e20, e21, e30, e31⟩ := index_facts0 t
  funext j
  obtain ⟨p, q, rfl⟩ : ∃ (p : Fin 10000) (q : Fin 16), j = ix2 p q := ⟨j 0, j 1, eq_ix2 (n0 := 10000) (n1 := 16) j⟩
  show k0_pay1 (iblk0 V c 0 t) (iblk0 V c 1 t) (iblk0 V c 2 t) (ix2 p q) = G0 V c (((cfg0.win 3).blk t).view.emb (ix2 p q))
  refine (pay0_apply _ _ _ p q).trans ?_
  refine Eq.trans ?_ (scaledProduct_apply _ _ _ _).symm
  refine congrArg₂ (· * ·) (Finset.sum_congr rfl fun k _ => congrArg₂ (· * ·) ?_ ?_) ?_
  · show V c main_arg0 (((cfg0.win 0).blk t).view.emb (ix2 p k)) = V c main_arg0 (ix2 ((((cfg0.win 3).blk t).view.emb (ix2 p q)) 0) k)
    refine congrArg (V c main_arg0) (funext fun a => Fin.ext ?_)
    match a with
    | ⟨0, _⟩ => show win0_0.index t (0 : Fin 2) * 10000 + 1 * p.val = win0_3.index t (0 : Fin 2) * 10000 + 1 * p.val; rw [e00, e30]
    | ⟨1, _⟩ => show win0_0.index t (1 : Fin 2) * 128 + 1 * k.val = k.val; rw [e01]; omega
  · show V c main_arg2 (((cfg0.win 1).blk t).view.emb (ix2 k q)) = V c main_arg2 (ix2 k ((((cfg0.win 3).blk t).view.emb (ix2 p q)) 1))
    refine congrArg (V c main_arg2) (funext fun a => Fin.ext ?_)
    match a with
    | ⟨0, _⟩ => show win0_1.index t (0 : Fin 2) * 128 + 1 * k.val = k.val; rw [e10]; omega
    | ⟨1, _⟩ => show win0_1.index t (1 : Fin 2) * 16 + 1 * q.val = win0_3.index t (1 : Fin 2) * 16 + 1 * q.val; rw [e11, e31]
  · show V c main_v15 (((cfg0.win 2).blk t).view.emb (ix2 p 0)) = V c main_v15 (ix2 ((((cfg0.win 3).blk t).view.emb (ix2 p q)) 0) 0)
    refine congrArg (V c main_v15) (funext fun a => Fin.ext ?_)
    match a with
    | ⟨0, _⟩ => show win0_2.index t (0 : Fin 2) * 10000 + 1 * p.val = win0_3.index t (0 : Fin 2) * 10000 + 1 * p.val; rw [e20, e30]
    | ⟨1, _⟩ => show win0_2.index t (1 : Fin 2) * 1 + 1 * 0 = 0; rw [e21]

/-- An index of the result array is in point `t`'s block iff each coordinate is in the block's range on its axis. -/
theorem mem_blk0 (t : Fin cfg0.N) (i : S100000x16.Idx) :
    i ∈ ((cfg0.win 3).blk t).view.set ↔ ∀ a : Fin 2, win0_3.index t a * S10000x16.size a ≤ (i a).val ∧ (i a).val < win0_3.index t a * S10000x16.size a + S10000x16.size a := by
  show i ∈ ((View.whole main_v16).slice (win0_3.rect t)).set ↔ _
  rw [View.set_slice_whole, Rect.mem_set_unit]
  exact Iff.rfl

/-- Every row `r` of the result lies in the block of point `r / 10000`, which writes back. -/
theorem cover0 (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 10 := N_0
  have ht : (i 0).val / 10000 < cfg0.N := by rw [hN]; omega
  obtain ⟨-, -, -, -, -, -, e30, e31⟩ := index_facts0 ⟨(i 0).val / 10000, ht⟩
  refine ⟨⟨(i 0).val / 10000, ht⟩, flush0_3 _, ?_⟩
  rw [mem_blk0]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e30]
    show (i 0).val / 10000 * 10000 ≤ (i 0).val ∧ (i 0).val < (i 0).val / 10000 * 10000 + 10000
    omega
  | ⟨1, _⟩ =>
    show win0_3.index ⟨(i 0).val / 10000, ht⟩ (1 : Fin 2) * 16 ≤ (i 1).val ∧ (i 1).val < win0_3.index ⟨(i 0).val / 10000, ht⟩ (1 : Fin 2) * 16 + 16
    rw [e31]
    omega

end R0

variable (V : (c : Dev nD) → (b : Ref sig .tc) → Buf (Elt Ideal) ((c : Thread nD τ).loc b))

/-- REGION 0: after the first kernel's ten points its result array is the scaled product of the arrays the region found. -/
theorem region0 (c : Dev nD) :
    (Gen.dat0 (F := Ideal) V c).arrAt 3 cfg0.N
      = Cert.Gcn.scaledProduct (V c main_arg0) (V c main_arg2) (V c main_v15) :=
  (Gen.dat0 (F := Ideal) V c).arrAt_eq_of_cover 3 (R0.G0 V c) (fun t _ => R0.flushed0_eq V c t) R0.cover0

end Cert.KernelIdeal.RegionValue

end
-- ==== Proof.Region1.lean ====
/-
  The second kernel's result array, as one function of the arrays the region finds.

  The kernel runs over ten points; at point `t` it loads rows `10000·t … 10000·t + 9999` of the aggregated features
  and of the scale column, and the whole bias row and weight matrix. It adds the bias row to every row of the block,
  takes the maximum with zero, multiplies by the weights (the changes of float format are the identity on extended
  reals, and the product accumulates from zero), scales each row by the row's factor, and writes the result back as
  rows `10000·t … 10000·t + 9999` of the output. So entry `(n, j)` of the output is
  `(∑ k, max (A (n, k) + b k) 0 · W (k, j)) · d n`: the block of point `t` is block `t` of that one function, and the
  ten blocks cover the array (row `r` lies in the block of point `r / 10000`).
-/
import proofs.«126548_j70145405878842_2_alg».proof.Proof.Gen.KernelIdeal.Frame
import proofs.«126548_j70145405878842_2_alg».proof.Proof.Spec
import proofs.«126548_j70145405878842_2_alg».proof.Proof.LibDenseLayers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.DenseLayers

namespace R1

/-- The payload of the second kernel at an entry of its block: row `p` of `relu(block + bias)` times column `q` of the
    weights, scaled by the row's factor. The format changes are the identity on extended reals. -/
theorem pay1_apply (x0 : Vec Ideal S10000x16 .f32) (x1 : Vec Ideal S1x16 .f32) (x2 : Vec Ideal S16x64 .f32)
    (x3 : Vec Ideal S10000x1 .f32) (p : Fin 10000) (q : Fin 64) :
    Gen.k1_pay1 x0 x1 x2 x3 (ix2 p q)
      = (∑ k : Fin 16, max (x0 (ix2 p k) + x1 (ix2 0 k)) Cert.Gcn.zeroF * x2 (ix2 k q)) * x3 (ix2 p 0) := by
  unfold Gen.k1_pay1
  simp only [shapeCast_self]
  refine (mulf_apply _ _ (ix2 p q)).trans ?_
  refine congrArg₂ (· * ·) ?_ ?_
  · refine (matmul_rowcol_zero_apply dot_S10000x16_S16x64_S10000x64_1_0_0_1_n_n_wf none _ _ p q).trans ?_
    refine Finset.sum_congr rfl fun k _ => congrArg₂ (· * ·) ?_ rfl
    show max (x0 (ix2 p k) + broadcastTo S10000x16 x1 broadcasts_S1x16_S10000x16 (ix2 p k)) Cert.Gcn.zeroF = _
    rw [broadcastTo_1b_ab_apply]
  · exact broadcastTo_column_apply x3 broadcasts_S10000x1_S10000x64 p q

theorem zeroOffsets2 : (![0, 0] : Fin 2 → Nat) = fun _ => 0 := funext fun a => by fin_cases a <;> rfl

/-- The printed index maps over the grid: at point `t` the feature block, the scale column and the output block are all
    block `t` along the rows; the bias row and the weights are whole. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The scaled product at an index, written out. -/
theorem scaledProduct_apply {N K D : Nat} (X : Cert.Gcn.Mat N K) (W : Cert.Gcn.Mat K D) (d : Cert.Gcn.Mat N 1)
    (i : (⟨2, ![N, D]⟩ : Shape).Idx) :
    Cert.Gcn.scaledProduct X W d i = (∑ k : Fin K, X (ix2 (i 0) k) * W (ix2 k (i 1))) * d (ix2 (i 0) 0) := rfl

/-- `relu(A + b)` at an entry, written out. -/
theorem reluBias_apply {N K : Nat} (A : Cert.Gcn.Mat N K) (b : Cert.Gcn.Mat 1 K) (n : Fin N) (k : Fin K) :
    Cert.Gcn.reluBias A b (ix2 n k) = max (A (ix2 n k) + b (ix2 0 k)) Cert.Gcn.zeroF := rfl

variable (V : (c : Dev nD) → (b : Ref sig .tc) → Buf (Elt Ideal) ((c : Thread nD τ).loc b))

/-- The second kernel's whole result as one function of the arrays the region finds. -/
abbrev G1 (c : Dev nD) : S100000x64.Idx → EReal :=
  Cert.Gcn.scaledProduct (Cert.Gcn.reluBias (V c main_v37) (V c main_v38)) (V c main_arg4) (V c main_v15)

/-- What point `t` writes back is block `t` of that function of the arrays the region finds. -/
theorem flushed1_eq (c : Dev nD) (t : Fin cfg1.N) :
    (Gen.dat1 (F := Ideal) V c).flushed 4 t = ((cfg1.win 4).blk t).view.read (Elt Ideal) (G1 V c) := by
  show (cfg1.win 4).cut (grid1.coords t) ((Gen.dat1 (F := Ideal) V c).after 4 t) = _
  rw [Gen.after1_4]
  unfold Gen.out1_4
  rw [View.canon_unit_zero zeroOffsets2]
  simp only [View.ld_unit_zero (S := S10000x16) zeroOffsets2, View.ld_unit_zero (S := S1x16) zeroOffsets2, View.ld_unit_zero (S := S16x64) zeroOffsets2, View.ld_unit_zero (S := S10000x1) zeroOffsets2]
  obtain ⟨e00, e01, e10, e11, e20, e21, e30, e31, e40, e41⟩ := index_facts1 t
  funext j
  obtain ⟨p, q, rfl⟩ : ∃ (p : Fin 10000) (q : Fin 64), j = ix2 p q := ⟨j 0, j 1, eq_ix2 (n0 := 10000) (n1 := 64) j⟩
  show k1_pay1 (iblk1 V c 0 t) (iblk1 V c 1 t) (iblk1 V c 2 t) (iblk1 V c 3 t) (ix2 p q) = G1 V c (((cfg1.win 4).blk t).view.emb (ix2 p q))
  refine (pay1_apply _ _ _ _ p q).trans ?_
  refine Eq.trans ?_ (scaledProduct_apply _ _ _ _).symm
  refine congrArg₂ (· * ·) (Finset.sum_congr rfl fun k _ => congrArg₂ (· * ·) ?_ ?_) ?_
  · refine Eq.trans ?_ (reluBias_apply _ _ _ _).symm
    refine congrArg₂ max (congrArg₂ (· + ·) ?_ ?_) rfl
    · show V c main_v37 (((cfg1.win 0).blk t).view.emb (ix2 p k)) = V c main_v37 (ix2 ((((cfg1.win 4).blk t).view.emb (ix2 p q)) 0) k)
      refine congrArg (V c main_v37) (funext fun a => Fin.ext ?_)
      match a with
      | ⟨0, _⟩ => show win1_0.index t (0 : Fin 2) * 10000 + 1 * p.val = win1_4.index t (0 : Fin 2) * 10000 + 1 * p.val; rw [e00, e40]
      | ⟨1, _⟩ => show win1_0.index t (1 : Fin 2) * 16 + 1 * k.val = k.val; rw [e01]; omega
    · show V c main_v38 (((cfg1.win 1).blk t).view.emb (ix2 0 k)) = V c main_v38 (ix2 0 k)
      refine congrArg (V c main_v38) (funext fun a => Fin.ext ?_)
      match a with
      | ⟨0, _⟩ => show win1_1.index t (0 : Fin 2) * 1 + 1 * 0 = 0; rw [e10]
      | ⟨1, _⟩ => show win1_1.index t (1 : Fin 2) * 16 + 1 * k.val = k.val; rw [e11]; omega
  · show V c main_arg4 (((cfg1.win 2).blk t).view.emb (ix2 k q)) = V c main_arg4 (ix2 k ((((cfg1.win 4).blk t).view.emb (ix2 p q)) 1))
    refine congrArg (V c main_arg4) (funext fun a => Fin.ext ?_)
    match a with
    | ⟨0, _⟩ => show win1_2.index t (0 : Fin 2) * 16 + 1 * k.val = k.val; rw [e20]; omega
    | ⟨1, _⟩ => show win1_2.index t (1 : Fin 2) * 64 + 1 * q.val = win1_4.index t (1 : Fin 2) * 64 + 1 * q.val; rw [e21, e41]
  · show V c main_v15 (((cfg1.win 3).blk t).view.emb (ix2 p 0)) = V c main_v15 (ix2 ((((cfg1.win 4).blk t).view.emb (ix2 p q)) 0) 0)
    refine congrArg (V c main_v15) (funext fun a => Fin.ext ?_)
    match a with
    | ⟨0, _⟩ => show win1_3.index t (0 : Fin 2) * 10000 + 1 * p.val = win1_4.index t (0 : Fin 2) * 10000 + 1 * p.val; rw [e30, e40]
    | ⟨1, _⟩ => show win1_3.index t (1 : Fin 2) * 1 + 1 * 0 = 0; rw [e31]

/-- An index of the result array is in point `t`'s block iff each coordinate is in the block's range on its axis. -/
theorem mem_blk1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v39).slice (win1_4.rect t)).set ↔ _
  rw [View.set_slice_whole, Rect.mem_set_unit]
  exact Iff.rfl

/-- Every row `r` of the result lies in the block of point `r / 10000`, which writes back. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  have ht : (i 0).val / 10000 < cfg1.N := by rw [hN]; omega
  obtain ⟨-, -, -, -, -, -, -, -, e40, e41⟩ := index_facts1 ⟨(i 0).val / 10000, ht⟩
  refine ⟨⟨(i 0).val / 10000, ht⟩, flush1_4 _, ?_⟩
  rw [mem_blk1]
  intro a
  match a with
  | ⟨0, _⟩ =>
    show win1_4.index ⟨(i 0).val / 10000, ht⟩ (0 : Fin 2) * 10000 ≤ (i 0).val ∧ (i 0).val < win1_4.index ⟨(i 0).val / 10000, ht⟩ (0 : Fin 2) * 10000 + 10000
    rw [e40]
    show (i 0).val / 10000 * 10000 ≤ (i 0).val ∧ (i 0).val < (i 0).val / 10000 * 10000 + 10000
    omega
  | ⟨1, _⟩ =>
    show win1_4.index ⟨(i 0).val / 10000, ht⟩ (1 : Fin 2) * 64 ≤ (i 1).val ∧ (i 1).val < win1_4.index ⟨(i 0).val / 10000, ht⟩ (1 : Fin 2) * 64 + 64
    rw [e41]
    omega

end R1

variable (V : (c : Dev nD) → (b : Ref sig .tc) → Buf (Elt Ideal) ((c : Thread nD τ).loc b))

/-- REGION 1: after the second kernel's ten points its result array is the scaled product of `relu(features + bias)`
    with the weights and the scale column, all as the region found them. -/
theorem region1 (c : Dev nD) :
    (Gen.dat1 (F := Ideal) V c).arrAt 4 cfg1.N
      = Cert.Gcn.scaledProduct (Cert.Gcn.reluBias (V c main_v37) (V c main_v38)) (V c main_arg4) (V c main_v15) :=
  (Gen.dat1 (F := Ideal) V c).arrAt_eq_of_cover 4 (R1.G1 V c) (fun t _ => R1.flushed1_eq V c t) R1.cover1

end Cert.KernelIdeal.RegionValue

end
-- ==== Proof.Region2.lean ====
/-
  The third kernel's result array, as one function of the arrays the region finds.

  The kernel runs over ten points; at point `t` it loads rows `10000·t … 10000·t + 9999` of the aggregated features
  and the whole bias row, weight matrix and output bias. It adds the bias row to every row of the block, takes the
  maximum with zero, multiplies by the weights (the changes of float format are the identity on extended reals, and
  the product accumulates from zero), adds the output bias to every row, sums the 10000 rows column by column (the sum
  starts from the zero word, the neutral element), and writes the two sums back as tile `t` of the `10 × 1 × 2` output.
  So entry `(t, 0, j)` of the output is `∑ r, ((∑ k, max (A (10000·t + r, k) + b k) 0 · W (k, j)) + f j)`: the block of
  point `t` is tile `t` of that one function, and the ten tiles are the whole array.
-/
import proofs.«126548_j70145405878842_2_alg».proof.Proof.Gen.KernelIdeal.Frame
import proofs.«126548_j70145405878842_2_alg».proof.Proof.Spec
import proofs.«126548_j70145405878842_2_alg».proof.Proof.LibDenseLayers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.DenseLayers

namespace R2

/-- A sum over the rows of a matrix, column by column: a `vector.multi_reduction <add>` over axis 0 of an `[a, b]`
    matrix, started from the zero word, reads at column `q` the sum over `k : Fin a` of the entries `(k, q)`. -/
theorem sumOverRows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction (F := Ideal) .add [0] ⟨1, ![b]⟩ src 0x00000000#32 h hφ hacc (ix1 q) = ∑ k : Fin a, src (ix2 k q) := by
  rw [Ideal.multiReduction_add_single]
  show ∑ k : Fin a, src (h.lift (ix1 q) k) = _
  refine Finset.sum_congr rfl fun k _ => congrArg src (funext fun ax => Fin.ext ?_)
  match ax with
  | ⟨0, _⟩ => rfl
  | ⟨1, _⟩ => rfl

/-- The payload of the third kernel at the entry `q` of its one-row block: the sum over the block's rows `r` of
    `(relu(block + bias) · W) (r, q) + f q`. The format changes are the identity on extended reals, the product
    accumulates from zero and the sum starts from the zero word. -/
theorem pay2_apply (x0 : Vec Ideal S10000x64 .f32) (x1 : Vec Ideal S1x64 .f32) (x2 : Vec Ideal S64x2 .f32)
    (x3 : Vec Ideal S1x2 .f32) (u0 u1 : Fin 1) (q : Fin 2) :
    Gen.k2_pay1 x0 x1 x2 x3 (ix3 u0 u1 q)
      = ∑ r : Fin 10000, ((∑ k : Fin 64, max (x0 (ix2 r k) + x1 (ix2 0 k)) Cert.Gcn.zeroF * x2 (ix2 k q)) + x3 (ix2 0 q)) := by
  unfold Gen.k2_pay1
  simp only [shapeCast_self]
  refine (shapeCast_ab_1ab_apply _ shapeCasts_S1x2_S1x1x2 u0 u1 q).trans ?_
  refine (shapeCast_a_1a_apply _ shapeCasts_S2_S1x2 u1 q).trans ?_
  refine (sumOverRows_apply _ reduces_S10000x2_S2 (.inl rfl) rfl q).trans ?_
  refine Finset.sum_congr rfl fun r _ => ?_
  refine (addf_apply _ _ (ix2 r q)).trans ?_
  refine congrArg₂ (· + ·) ?_ ?_
  · refine (matmul_rowcol_zero_apply dot_S10000x64_S64x2_S10000x2_1_0_0_1_n_n_wf none _ _ r q).trans ?_
    refine Finset.sum_congr rfl fun k _ => congrArg₂ (· * ·) ?_ rfl
    show max (x0 (ix2 r k) + broadcastTo S10000x64 x1 broadcasts_S1x64_S10000x64 (ix2 r k)) Cert.Gcn.zeroF = _
    rw [broadcastTo_1b_ab_apply]
  · exact broadcastTo_1b_ab_apply x3 broadcasts_S1x2_S10000x2 r q

theorem zeroOffsets2 : (![0, 0] : Fin 2 → Nat) = fun _ => 0 := funext fun a => by fin_cases a <;> rfl
theorem zeroOffsets3 : (![0, 0, 0] : Fin 3 → Nat) = fun _ => 0 := funext fun a => by fin_cases a <;> rfl

/-- The printed index maps over the grid: at point `t` the feature block is block `t` along the rows and the output
    block is tile `t`; the bias rows and the weights are whole. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val ∧ win2_4.index t (1 : Fin 3) = 0 ∧ win2_4.index t (2 : Fin 3) = 0 :=
  (by decide +kernel : ∀ t : Fin grid2.N, _)

/-- `relu(A + b)` at an entry, written out. -/
theorem reluBias_apply {N K : Nat} (A : Cert.Gcn.Mat N K) (b : Cert.Gcn.Mat 1 K) (n : Fin N) (k : Fin K) :
    Cert.Gcn.reluBias A b (ix2 n k) = max (A (ix2 n k) + b (ix2 0 k)) Cert.Gcn.zeroF := rfl

/-- The tile sums at an index, written out. -/
theorem tilePool_apply {T R K D : Nat} (A : Cert.Gcn.Mat (T * R) K) (b : Cert.Gcn.Mat 1 K) (W : Cert.Gcn.Mat K D)
    (f : Cert.Gcn.Mat 1 D) (i : (⟨3, ![T, 1, D]⟩ : Shape).Idx) :
    Cert.Gcn.tilePool A b W f i
      = ∑ r : Fin R, ((∑ k : Fin K, Cert.Gcn.reluBias A b (ix2 (Cert.Gcn.tileRow (i 0) r) k) * W (ix2 k (i 2))) + f (ix2 0 (i 2))) := rfl

variable (V : (c : Dev nD) → (b : Ref sig .tc) → Buf (Elt Ideal) ((c : Thread nD τ).loc b))

/-- The third kernel's whole result as one function of the arrays the region finds. -/
abbrev G2 (c : Dev nD) : S10x1x2.Idx → EReal :=
  Cert.Gcn.tilePool (T := 10) (R := 10000) (V c main_v60) (V c main_v61) (V c main_arg6) (V c main_v62)

/-- What point `t` writes back is tile `t` of that function of the arrays the region finds. -/
theorem flushed2_eq (c : Dev nD) (t : Fin cfg2.N) :
    (Gen.dat2 (F := Ideal) V c).flushed 4 t = ((cfg2.win 4).blk t).view.read (Elt Ideal) (G2 V c) := by
  show (cfg2.win 4).cut (grid2.coords t) ((Gen.dat2 (F := Ideal) V c).after 4 t) = _
  rw [Gen.after2_4]
  unfold Gen.out2_4
  rw [View.canon_unit_zero zeroOffsets3]
  simp only [View.ld_unit_zero (S := S10000x64) zeroOffsets2, View.ld_unit_zero (S := S1x64) zeroOffsets2, View.ld_unit_zero (S := S64x2) zeroOffsets2, View.ld_unit_zero (S := S1x2) zeroOffsets2]
  obtain ⟨e00, e01, e10, e11, e20, e21, e30, e31, e40, e41, e42⟩ := index_facts2 t
  funext j
  obtain ⟨u0, u1, q, rfl⟩ : ∃ (u0 u1 : Fin 1) (q : Fin 2), j = ix3 u0 u1 q := ⟨j 0, j 1, j 2, eq_ix3 (n0 := 1) (n1 := 1) (n2 := 2) j⟩
  have hu0 : u0.val = 0 := by have := u0.isLt; omega
  show k2_pay1 (iblk2 V c 0 t) (iblk2 V c 1 t) (iblk2 V c 2 t) (iblk2 V c 3 t) (ix3 u0 u1 q) = G2 V c (((cfg2.win 4).blk t).view.emb (ix3 u0 u1 q))
  refine (pay2_apply _ _ _ _ u0 u1 q).trans ?_
  refine Eq.trans ?_ (tilePool_apply _ _ _ _ _).symm
  refine Finset.sum_congr rfl fun r _ => congrArg₂ (· + ·) (Finset.sum_congr rfl fun k _ => congrArg₂ (· * ·) ?_ ?_) ?_
  · refine Eq.trans ?_ (reluBias_apply _ _ _ _).symm
    refine congrArg₂ max (congrArg₂ (· + ·) ?_ ?_) rfl
    · show V c main_v60 (((cfg2.win 0).blk t).view.emb (ix2 r k)) = V c main_v60 (ix2 (Cert.Gcn.tileRow (T := 10) (R := 10000) ((((cfg2.win 4).blk t).view.emb (ix3 u0 u1 q)) 0) r) k)
      refine congrArg (V c main_v60) (funext fun a => Fin.ext ?_)
      match a with
      | ⟨0, _⟩ =>
        show win2_0.index t (0 : Fin 2) * 10000 + 1 * r.val = (win2_4.index t (0 : Fin 3) * 1 + 1 * u0.val) * 10000 + r.val
        rw [e00, e40, hu0]; omega
      | ⟨1, _⟩ => show win2_0.index t (1 : Fin 2) * 64 + 1 * k.val = k.val; rw [e01]; omega
    · show V c main_v61 (((cfg2.win 1).blk t).view.emb (ix2 0 k)) = V c main_v61 (ix2 0 k)
      refine congrArg (V c main_v61) (funext fun a => Fin.ext ?_)
      match a with
      | ⟨0, _⟩ => show win2_1.index t (0 : Fin 2) * 1 + 1 * 0 = 0; rw [e10]
      | ⟨1, _⟩ => show win2_1.index t (1 : Fin 2) * 64 + 1 * k.val = k.val; rw [e11]; omega
  · show V c main_arg6 (((cfg2.win 2).blk t).view.emb (ix2 k q)) = V c main_arg6 (ix2 k ((((cfg2.win 4).blk t).view.emb (ix3 u0 u1 q)) 2))
    refine congrArg (V c main_arg6) (funext fun a => Fin.ext ?_)
    match a with
    | ⟨0, _⟩ => show win2_2.index t (0 : Fin 2) * 64 + 1 * k.val = k.val; rw [e20]; omega
    | ⟨1, _⟩ => show win2_2.index t (1 : Fin 2) * 2 + 1 * q.val = win2_4.index t (2 : Fin 3) * 2 + 1 * q.val; rw [e21, e42]
  · show V c main_v62 (((cfg2.win 3).blk t).view.emb (ix2 0 q)) = V c main_v62 (ix2 0 ((((cfg2.win 4).blk t).view.emb (ix3 u0 u1 q)) 2))
    refine congrArg (V c main_v62) (funext fun a => Fin.ext ?_)
    match a with
    | ⟨0, _⟩ => show win2_3.index t (0 : Fin 2) * 1 + 1 * 0 = 0; rw [e30]
    | ⟨1, _⟩ => show win2_3.index t (1 : Fin 2) * 2 + 1 * q.val = win2_4.index t (2 : Fin 3) * 2 + 1 * q.val; rw [e31, e42]

/-- An index of the result array is in point `t`'s block iff each coordinate is in the block's range on its axis. -/
theorem mem_blk2 (t : Fin cfg2.N) (i : S10x1x2.Idx) :
    i ∈ ((cfg2.win 4).blk t).view.set ↔ ∀ a : Fin 3, win2_4.index t a * S1x1x2.size a ≤ (i a).val ∧ (i a).val < win2_4.index t a * S1x1x2.size a + S1x1x2.size a := by
  show i ∈ ((View.whole main_v63).slice (win2_4.rect t)).set ↔ _
  rw [View.set_slice_whole, Rect.mem_set_unit]
  exact Iff.rfl

/-- Tile `n` of the result is the block of point `n`, which writes back. -/
theorem cover2 (i : S10x1x2.Idx) :
    ∃ t : Fin cfg2.N, (cfg2.win 4).flush t = true ∧ i ∈ ((cfg2.win 4).blk t).view.set := by
  have hi0 : (i 0).val < 10 := (i 0).isLt
  have hi1 : (i 1).val < 1 := (i 1).isLt
  have hi2 : (i 2).val < 2 := (i 2).isLt
  have hN : cfg2.N = 10 := N_2
  have ht : (i 0).val < cfg2.N := by rw [hN]; exact hi0
  obtain ⟨-, -, -, -, -, -, -, -, e40, e41, e42⟩ := index_facts2 ⟨(i 0).val, ht⟩
  refine ⟨⟨(i 0).val, ht⟩, flush2_4 _, ?_⟩
  rw [mem_blk2]
  intro a
  match a with
  | ⟨0, _⟩ =>
    show win2_4.index ⟨(i 0).val, ht⟩ (0 : Fin 3) * 1 ≤ (i 0).val ∧ (i 0).val < win2_4.index ⟨(i 0).val, ht⟩ (0 : Fin 3) * 1 + 1
    rw [e40]
    show (i 0).val * 1 ≤ (i 0).val ∧ (i 0).val < (i 0).val * 1 + 1
    omega
  | ⟨1, _⟩ =>
    show win2_4.index ⟨(i 0).val, ht⟩ (1 : Fin 3) * 1 ≤ (i 1).val ∧ (i 1).val < win2_4.index ⟨(i 0).val, ht⟩ (1 : Fin 3) * 1 + 1
    rw [e41]
    omega
  | ⟨2, _⟩ =>
    show win2_4.index ⟨(i 0).val, ht⟩ (2 : Fin 3) * 2 ≤ (i 2).val ∧ (i 2).val < win2_4.index ⟨(i 0).val, ht⟩ (2 : Fin 3) * 2 + 2
    rw [e42]
    omega

end R2

variable (V : (c : Dev nD) → (b : Ref sig .tc) → Buf (Elt Ideal) ((c : Thread nD τ).loc b))

/-- REGION 2: after the third kernel's ten points its result array holds, tile by tile, the sum over the tile's 10000
    rows of the read-out rows `relu(features + bias)·W + f`, all arrays as the region found them. -/
theorem region2 (c : Dev nD) :
    (Gen.dat2 (F := Ideal) V c).arrAt 4 cfg2.N
      = Cert.Gcn.tilePool (T := 10) (R := 10000) (V c main_v60) (V c main_v61) (V c main_arg6) (V c main_v62) :=
  (Gen.dat2 (F := Ideal) V c).arrAt_eq_of_cover 4 (R2.G2 V c) (fun t _ => R2.flushed2_eq V c t) R2.cover2

end Cert.KernelIdeal.RegionValue

end
-- ==== Proof.KValue.lean ====
/-
  The idealized kernel program's result buffer ends at `kernelValue` of the launch arguments: the boundary contents
  followed back through the segments, each kernel launch replaced by the whole array it writes.
-/
import proofs.«126548_j70145405878842_2_alg».proof.Proof.KFold
import proofs.«126548_j70145405878842_2_alg».proof.Proof.KClosed
import proofs.«126548_j70145405878842_2_alg».proof.Proof.Region0
import proofs.«126548_j70145405878842_2_alg».proof.Proof.Region1
import proofs.«126548_j70145405878842_2_alg».proof.Proof.Region2

set_option maxRecDepth 16384

noncomputable section

namespace Cert.KernelIdeal.KFold

open Idealize.ShloMosaic Idealize.ShloMosaic.TcCoe Idealize.SL.Sem
open Cert.KernelIdeal Cert.KernelIdeal.Gen Cert.KernelIdeal.KVal Cert.KernelIdeal.RegionValue

variable (m : (ℓ : Loc nD τ sig) → Buf (Elt Ideal) ℓ) (ρ : Dev nD → PrngReg)

/-- After the first kernel: the scaled product of the features, the first weights and the degree factors. -/
theorem W4_value (c : Dev nD) :
    W4 m ρ c (Proc.devRef .tc main_v16)
      = Cert.Gcn.scaledProduct (m ((c : Thread nD τ).loc main_arg0)) (m ((c : Thread nD τ).loc main_arg2)) (dcolK (F := Ideal) (m ((c : Thread nD τ).loc main_arg1))) := by
  rw [W4_out, region0 (V3 m ρ) c]
  have h0 : V3 m ρ c main_arg0 = m ((c : Thread nD τ).loc main_arg0) := W3_arg0 m ρ c
  have h2 : V3 m ρ c main_arg2 = m ((c : Thread nD τ).loc main_arg2) := W3_arg2 m ρ c
  have hd : V3 m ρ c main_v15 = dcolK (F := Ideal) (m ((c : Thread nD τ).loc main_arg1)) := W3_dcol m ρ c
  rw [h0, h2, hd]

/-- After the first message pass. -/
theorem W5_value (c : Dev nD) :
    W5 m ρ c (Proc.devRef .tc main_v37) = layer1K (m ((c : Thread nD τ).loc main_arg0)) (m ((c : Thread nD τ).loc main_arg1)) (m ((c : Thread nD τ).loc main_arg2)) := by
  rw [W5_agg, W4_value]
  rfl

/-- After the second kernel. -/
theorem W6_value (c : Dev nD) :
    W6 m ρ c (Proc.devRef .tc main_v39)
      = Cert.Gcn.scaledProduct (Cert.Gcn.reluBias (layer1K (m ((c : Thread nD τ).loc main_arg0)) (m ((c : Thread nD τ).loc main_arg1)) (m ((c : Thread nD τ).loc main_arg2)))
          (shapeCast _ (m ((c : Thread nD τ).loc main_arg3)) Facts₀.shapeCasts_S16_S1x16)) (m ((c : Thread nD τ).loc main_arg4)) (dcolK (F := Ideal) (m ((c : Thread nD τ).loc main_arg1))) := by
  rw [W6_out, region1 (V5 m ρ) c]
  have ha : V5 m ρ c main_v37 = layer1K (m ((c : Thread nD τ).loc main_arg0)) (m ((c : Thread nD τ).loc main_arg1)) (m ((c : Thread nD τ).loc main_arg2)) := W5_value m ρ c
  have hb : V5 m ρ c main_v38 = shapeCast _ (m ((c : Thread nD τ).loc main_arg3)) Facts₀.shapeCasts_S16_S1x16 := W5_bias m ρ c
  have hw : V5 m ρ c main_arg4 = m ((c : Thread nD τ).loc main_arg4) := W5_arg4 m ρ c
  have hd : V5 m ρ c main_v15 = dcolK (F := Ideal) (m ((c : Thread nD τ).loc main_arg1)) := W5_dcol m ρ c
  rw [ha, hb, hw, hd]

/-- After the second message pass. -/
theorem W7_value (c : Dev nD) :
    W7 m ρ c (Proc.devRef .tc main_v60)
      = layer2K (layer1K (m ((c : Thread nD τ).loc main_arg0)) (m ((c : Thread nD τ).loc main_arg1)) (m ((c : Thread nD τ).loc main_arg2))) (m ((c : Thread nD τ).loc main_arg1)) (m ((c : Thread nD τ).loc main_arg3)) (m ((c : Thread nD τ).loc main_arg4)) := by
  rw [W7_agg, W6_value]
  rfl

/-- After the third kernel. -/
theorem W8_value (c : Dev nD) :
    W8 m ρ c (Proc.devRef .tc main_v63)
      = partialsK (layer2K (layer1K (m ((c : Thread nD τ).loc main_arg0)) (m ((c : Thread nD τ).loc main_arg1)) (m ((c : Thread nD τ).loc main_arg2))) (m ((c : Thread nD τ).loc main_arg1)) (m ((c : Thread nD τ).loc main_arg3)) (m ((c : Thread nD τ).loc main_arg4)))
          (m ((c : Thread nD τ).loc main_arg5)) (m ((c : Thread nD τ).loc main_arg6)) (m ((c : Thread nD τ).loc main_arg7)) := by
  rw [W8_out, region2 (V7 m ρ) c]
  have ha : V7 m ρ c main_v60 = layer2K (layer1K (m ((c : Thread nD τ).loc main_arg0)) (m ((c : Thread nD τ).loc main_arg1)) (m ((c : Thread nD τ).loc main_arg2))) (m ((c : Thread nD τ).loc main_arg1)) (m ((c : Thread nD τ).loc main_arg3)) (m ((c : Thread nD τ).loc main_arg4)) := W7_value m ρ c
  have hb : V7 m ρ c main_v61 = shapeCast _ (m ((c : Thread nD τ).loc main_arg5)) Facts₀.shapeCasts_S64_S1x64 := W7_bias m ρ c
  have hw : V7 m ρ c main_arg6 = m ((c : Thread nD τ).loc main_arg6) := W7_arg6 m ρ c
  have hf : V7 m ρ c main_v62 = shapeCast _ (m ((c : Thread nD τ).loc main_arg7)) Facts₀.shapeCasts_S2_S1x2 := W7_fcbias m ρ c
  rw [ha, hb, hw, hf]
  rfl

/-- THE RESULT BUFFER'S FINAL CONTENTS, as a function of the launch arguments. -/
theorem W10_value (c : Dev nD) :
    W10 m ρ c (Proc.devRef .tc main_v65)
      = kernelValue (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [W10_result, W8_value]
  rfl

end Cert.KernelIdeal.KFold

end
-- ==== Proof.LibRowGatherScatter.lean ====
/-
  Row gather, element gather and row scatter of StableHLO, read at an index.

  The dimension numbers that `x[idx]` over the rows of a matrix, `x[idx]` over a flat array and a row-wise
  segment sum lower to, each with start indices of shape `[E, 1]` (one scalar index per gathered or scattered row):
  a gathered row is the operand's row at the start index read signed and clamped into `[0, N - 1]`; a scattered
  update row lands on the operand row whose number is the scatter index read signed and not clamped, and is dropped when
  that number is outside `[0, N)`; the column is kept in both.
-/
import Idealize.ShloMosaic.PureOps.Ideal
import Idealize.ShloMosaic.Lib.ValueIdx

noncomputable section

namespace Idealize.ShloMosaic.RowGatherScatter

open Idealize.ShloMosaic Idealize.ShloMosaic.ValueIdx

/-- A signed start index clamped into `[0, N - 1]`, as StableHLO's gather clamps it. -/
def clampRow {w : Nat} (N : Nat) (hN : 0 < N) (v : BitVec w) : Fin N := ⟨min v.toInt.toNat (N - 1), by omega⟩

/-! ## Row gather: operand `[N, D]`, start indices `[E, 1]`, result `[E, D]` -/

/-- The dimension numbers of a gather of whole rows: the result's axis 1 is the offset axis, the operand's axis 0 is
    collapsed and is the one the start index names, the slice is one row `[1, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index at which result index `(e, j)` of a row gather reads its one start-index component
    is `(e, 0)`. -/
theorem rowGather_siIdx {N E D : Nat}
    (wf : GatherDims.WF ⟨2, ![N, D]⟩ ⟨2, ![E, 1]⟩ ⟨2, ![E, D]⟩ [1] [0] [] [0] [] 1 ![1, D])
    (e : Fin E) (j : Fin D) (c : Fin (rowGatherDims N E D wf).startIndexMap.length) :
    (rowGatherDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- THE ROW GATHER READ AT `(e, j)`: the operand at row "start index `idx[e, 0]` read signed and clamped into
    `[0, N - 1]`", column `j`. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N E D wf) x idx (ix2 e j) = x (ix2 (clampRow N hN (idx (ix2 e (0 : Fin 1)))) j) := by
  unfold Host.gather
  congr 1
  funext a
  refine Fin.ext ?_
  match a with
  | ⟨0, _⟩ =>
    show (rowGatherDims N E D wf).start (ix2 e j) idx 0 + (rowGatherDims N E D wf).batchCoord (ix2 e j) 0
      + (rowGatherDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    rw [rowGather_siIdx]
    rfl
  | ⟨1, _⟩ =>
    show (rowGatherDims N E D wf).start (ix2 e j) idx 1 + (rowGatherDims N E D wf).batchCoord (ix2 e j) 1
      + (rowGatherDims N E D wf).offCoord (ix2 e j) 1 = j.val
    rw [GatherDims.batchCoord_eq_zero _ _ _ List.not_mem_nil]
    have hs : (rowGatherDims N E D wf).start (ix2 e j) idx 1 = 0 := by
      unfold GatherDims.start
      rw [dif_neg (show (1 : Fin 2) ∉ [(0 : Fin 2)] by decide)]
    rw [hs]
    simp only [Nat.add_zero, Nat.zero_add]
    rfl

/-! ## Element gather: operand `[N]`, start indices `[E, 1]`, result `[E]` -/

/-- The dimension numbers of a gather of single elements of a flat array: no offset axis, the operand's one axis
    collapsed and named by the start index, the slice one element. -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The start-indices index at which result index `e` of an element gather reads its one start-index component
    is `(e, 0)`. -/
theorem elemGather_siIdx {N E : Nat}
    (wf : GatherDims.WF ⟨1, ![N]⟩ ⟨2, ![E, 1]⟩ ⟨1, ![E]⟩ [] [0] [] [0] [] 1 ![1])
    (e : Fin E) (c : Fin (elemGatherDims N E wf).startIndexMap.length) :
    (elemGatherDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- THE ELEMENT GATHER READ AT `e`: the operand at "start index `idx[e, 0]` read signed and clamped into
    `[0, N - 1]`". -/
theorem gather_elems_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (elemGatherDims N E wf) x idx (ix1 e) = x (ix1 (clampRow N hN (idx (ix2 e (0 : Fin 1))))) := by
  unfold Host.gather
  congr 1
  funext a
  obtain rfl : a = 0 := Subsingleton.elim _ _
  refine Fin.ext ?_
  show (elemGatherDims N E wf).start (ix1 e) idx 0 + (elemGatherDims N E wf).batchCoord (ix1 e) 0
    + (elemGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  rw [elemGather_siIdx]
  rfl

/-! ## Row scatter: operand `[N, D]`, scatter indices `[E, 1]`, updates `[E, D]` -/

/-- The dimension numbers of a scatter of whole rows: the updates' axis 1 is the window axis, the operand's axis 0 is
    inserted and is the one the scatter index names. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The scatter-indices index at which update index `(e, j)` of a row scatter reads its one start-index component
    is `(e, 0)`. -/
theorem rowScatter_siIdx {N E D : Nat}
    (wf : ScatterDims.WF ⟨2, ![N, D]⟩ ⟨2, ![E, 1]⟩ ⟨2, ![E, D]⟩ [1] [0] [0] 1)
    (e : Fin E) (j : Fin D) (c : Fin (rowScatterDims N E D wf).scatterDimsToOperandDims.length) :
    (rowScatterDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- On the row axis the window of update `(e, j)` starts at the scatter index `idx[e, 0]` read signed. -/
theorem rowScatter_start_row {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 0 = (idx (ix2 e (0 : Fin 1))).toInt := by
  unfold ScatterDims.start
  rw [dif_pos (show (0 : Fin 2) ∈ (rowScatterDims N E D wf).scatterDimsToOperandDims from List.mem_singleton.mpr rfl)]
  rw [rowScatter_siIdx]

/-- On the column axis the window starts at `0`: the scatter index does not name that axis. -/
theorem rowScatter_start_col {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 1 = 0 := by
  unfold ScatterDims.start
  rw [dif_neg (show (1 : Fin 2) ∉ [(0 : Fin 2)] by decide)]

/-- The window coordinate of update `(e, j)` on the row axis is `0`: that axis is inserted. -/
theorem rowScatter_window_row {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 0 = 0 := rfl

/-- The window coordinate of update `(e, j)` on the column axis is the column `j`. -/
theorem rowScatter_window_col {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 1 = j.val := rfl

/-- WHERE A SCATTERED ROW LANDS: update row `e` lands on operand row `n` exactly when its scatter index
    `idx[e, 0]`, read signed and NOT clamped, is `n`; the column is kept. -/
theorem rowScatter_resultIdx?_eq_some {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (i : (⟨2, ![N, D]⟩ : Shape).Idx)
    (h : (rowScatterDims N E D wf).resultIdx? (ix2 e j) idx = some i) :
    ∃ n : Fin N, i = ix2 n j ∧ (idx (ix2 e (0 : Fin 1))).toInt = (n.val : Int) := by
  unfold ScatterDims.resultIdx? at h
  split at h
  · rename_i hin
    have h0 := hin 0
    rw [rowScatter_start_row, rowScatter_window_row] at h0
    have hsize : (⟨2, ![N, D]⟩ : Shape).size 0 = N := rfl
    rw [hsize] at h0
    have hi := Option.some.inj h
    refine ⟨⟨(idx (ix2 e (0 : Fin 1))).toInt.toNat, by omega⟩, ?_, by simp only; omega⟩
    rw [← hi]
    funext a
    refine Fin.ext ?_
    match a with
    | ⟨0, _⟩ =>
      show ((rowScatterDims N E D wf).start (ix2 e j) idx 0 + ((rowScatterDims N E D wf).window (ix2 e j) 0 : Nat)).toNat
        = (idx (ix2 e (0 : Fin 1))).toInt.toNat
      rw [rowScatter_start_row, rowScatter_window_row]
      simp
    | ⟨1, _⟩ =>
      show ((rowScatterDims N E D wf).start (ix2 e j) idx 1 + ((rowScatterDims N E D wf).window (ix2 e j) 1 : Nat)).toNat
        = j.val
      rw [rowScatter_start_col, rowScatter_window_col]
      simp
  · exact absurd h (by simp)

/-- The converse: when the scatter index `idx[e, 0]`, read signed, is the row number `n < N`, update
    `(e, j)` lands at `(n, j)`. -/
theorem rowScatter_resultIdx?_of_toInt {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (n : Fin N)
    (hn : (idx (ix2 e (0 : Fin 1))).toInt = (n.val : Int)) :
    (rowScatterDims N E D wf).resultIdx? (ix2 e j) idx = some (ix2 n j) := by
  have hin : ∀ a, 0 ≤ (rowScatterDims N E D wf).start (ix2 e j) idx a + (rowScatterDims N E D wf).window (ix2 e j) a ∧
      (rowScatterDims N E D wf).start (ix2 e j) idx a + (rowScatterDims N E D wf).window (ix2 e j) a
        < (⟨2, ![N, D]⟩ : Shape).size a := by
    intro a
    match a with
    | ⟨0, _⟩ =>
      have hsize : (⟨2, ![N, D]⟩ : Shape).size ⟨0, by omega⟩ = N := rfl
      have h0 : (rowScatterDims N E D wf).start (ix2 e j) idx ⟨0, by omega⟩ = (n.val : Int) :=
        (rowScatter_start_row wf idx e j).trans hn
      have h1 : (rowScatterDims N E D wf).window (ix2 e j) ⟨0, by omega⟩ = 0 := rfl
      have := n.isLt
      rw [hsize, h0, h1]
      omega
    | ⟨1, _⟩ =>
      have hsize : (⟨2, ![N, D]⟩ : Shape).size ⟨1, by omega⟩ = D := rfl
      have h0 : (rowScatterDims N E D wf).start (ix2 e j) idx ⟨1, by omega⟩ = 0 := rowScatter_start_col wf idx e j
      have h1 : (rowScatterDims N E D wf).window (ix2 e j) ⟨1, by omega⟩ = j.val := rfl
      have := j.isLt
      rw [hsize, h0, h1]
      omega
  unfold ScatterDims.resultIdx?
  rw [dif_pos hin]
  congr 1
  funext a
  refine Fin.ext ?_
  match a with
  | ⟨0, _⟩ =>
    show ((rowScatterDims N E D wf).start (ix2 e j) idx 0 + ((rowScatterDims N E D wf).window (ix2 e j) 0 : Nat)).toNat
      = n.val
    rw [rowScatter_start_row, rowScatter_window_row, hn]
    simp
  | ⟨1, _⟩ =>
    show ((rowScatterDims N E D wf).start (ix2 e j) idx 1 + ((rowScatterDims N E D wf).window (ix2 e j) 1 : Nat)).toNat
      = j.val
    rw [rowScatter_start_col, rowScatter_window_col]
    simp

/-! ## Element scatter: operand `[N]`, scatter indices `[E, 1]`, updates `[E]` -/

/-- The dimension numbers of a scatter of single elements into a flat array: no window axis, the operand's one axis
    inserted and named by the scatter index. -/
abbrev elemScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The scatter-indices index at which update index `e` of an element scatter reads its one start-index component
    is `(e, 0)`. -/
theorem elemScatter_siIdx {N E : Nat}
    (wf : ScatterDims.WF ⟨1, ![N]⟩ ⟨2, ![E, 1]⟩ ⟨1, ![E]⟩ [] [0] [0] 1)
    (e : Fin E) (c : Fin (elemScatterDims N E wf).scatterDimsToOperandDims.length) :
    (elemScatterDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- The window of update `e` starts at the scatter index `idx[e, 0]` read signed. -/
theorem elemScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (elemScatterDims N E wf).start (ix1 e) idx 0 = (idx (ix2 e (0 : Fin 1))).toInt := by
  unfold ScatterDims.start
  rw [dif_pos (show (0 : Fin 1) ∈ (elemScatterDims N E wf).scatterDimsToOperandDims from List.mem_singleton.mpr rfl)]
  rw [elemScatter_siIdx]

/-- The window coordinate of update `e` on the one axis is `0`: that axis is inserted. -/
theorem elemScatter_window {N E : Nat}
    (wf : ScatterDims.WF ⟨1, ![N]⟩ ⟨2, ![E, 1]⟩ ⟨1, ![E]⟩ [] [0] [0] 1) (e : Fin E) :
    (elemScatterDims N E wf).window (ix1 e) 0 = 0 := rfl

/-- WHERE A SCATTERED ELEMENT LANDS: update `e` lands on operand element `n` exactly when its scatter index
    `idx[e, 0]`, read signed and NOT clamped, is `n`. -/
theorem elemScatter_resultIdx?_eq_some {N E w : Nat}
    (wf : ScatterDims.WF ⟨1, ![N]⟩ ⟨2, ![E, 1]⟩ ⟨1, ![E]⟩ [] [0] [0] 1)
    (idx : IVec ⟨2, ![E, 1]⟩ w) (e : Fin E) (i : (⟨1, ![N]⟩ : Shape).Idx)
    (h : (elemScatterDims N E wf).resultIdx? (ix1 e) idx = some i) :
    ∃ n : Fin N, i = ix1 n ∧ (idx (ix2 e (0 : Fin 1))).toInt = (n.val : Int) := by
  unfold ScatterDims.resultIdx? at h
  split at h
  · rename_i hin
    have h0 := hin 0
    rw [elemScatter_start, elemScatter_window] at h0
    have hsize : (⟨1, ![N]⟩ : Shape).size 0 = N := rfl
    rw [hsize] at h0
    have hi := Option.some.inj h
    refine ⟨⟨(idx (ix2 e (0 : Fin 1))).toInt.toNat, by omega⟩, ?_, by simp only; omega⟩
    rw [← hi]
    funext a
    obtain rfl : a = 0 := Subsingleton.elim _ _
    refine Fin.ext ?_
    show ((elemScatterDims N E wf).start (ix1 e) idx 0 + ((elemScatterDims N E wf).window (ix1 e) 0 : Nat)).toNat
      = (idx (ix2 e (0 : Fin 1))).toInt.toNat
    rw [elemScatter_start, elemScatter_window]
    simp
  · exact absurd h (by simp)

/-- The converse: when the scatter index `idx[e, 0]`, read signed, is the element number `n < N`, update
    `e` lands at `n`. -/
theorem elemScatter_resultIdx?_of_toInt {N E w : Nat}
    (wf : ScatterDims.WF ⟨1, ![N]⟩ ⟨2, ![E, 1]⟩ ⟨1, ![E]⟩ [] [0] [0] 1)
    (idx : IVec ⟨2, ![E, 1]⟩ w) (e : Fin E) (n : Fin N)
    (hn : (idx (ix2 e (0 : Fin 1))).toInt = (n.val : Int)) :
    (elemScatterDims N E wf).resultIdx? (ix1 e) idx = some (ix1 n) := by
  have hin : ∀ a, 0 ≤ (elemScatterDims N E wf).start (ix1 e) idx a + (elemScatterDims N E wf).window (ix1 e) a ∧
      (elemScatterDims N E wf).start (ix1 e) idx a + (elemScatterDims N E wf).window (ix1 e) a
        < (⟨1, ![N]⟩ : Shape).size a := by
    intro a
    obtain rfl : a = 0 := Subsingleton.elim _ _
    have hsize : (⟨1, ![N]⟩ : Shape).size 0 = N := rfl
    have h0 : (elemScatterDims N E wf).start (ix1 e) idx 0 = (n.val : Int) := (elemScatter_start wf idx e).trans hn
    have h1 : (elemScatterDims N E wf).window (ix1 e) 0 = 0 := rfl
    have := n.isLt
    rw [hsize, h0, h1]
    omega
  unfold ScatterDims.resultIdx?
  rw [dif_pos hin]
  congr 1
  funext a
  obtain rfl : a = 0 := Subsingleton.elim _ _
  refine Fin.ext ?_
  show ((elemScatterDims N E wf).start (ix1 e) idx 0 + ((elemScatterDims N E wf).window (ix1 e) 0 : Nat)).toNat = n.val
  rw [elemScatter_start, elemScatter_window, hn]
  simp

/-! ## A start index that is a row number -/

/-- A start index whose signed value is a row number `n < N` is clamped to `n` itself. -/
theorem clampRow_of_toInt {N : Nat} (hN : 0 < N) (v : BitVec 32) (n : Fin N) (h : v.toInt = (n.val : Int)) :
    clampRow N hN v = n := by
  refine Fin.ext ?_
  have hn := n.isLt
  show min v.toInt.toNat (N - 1) = n.val
  rw [h]
  simp only [Int.toNat_natCast]
  omega

/-- The signed comparison "`v < 0`" of a 32-bit word whose signed value is a natural number is the bit `0`. -/
theorem cmpi_slt_zero_of_toInt (v : BitVec 32) (n : Nat) (h : v.toInt = (n : Int)) :
    IntOp.cmpi .slt v 0#32 = 0#1 := by
  have hs : v.slt 0#32 = false := by
    simp only [BitVec.slt, h]
    simp
  show BitVec.ofBool (v.slt 0#32) = 0#1
  rw [hs]
  rfl

/-- Normalising a possibly negative index (`v < 0 → v + N`) leaves alone a word whose signed value is a natural
    number: the select takes its second operand, whatever the first is. -/
theorem select_slt_zero_of_toInt {α : Type} (v : BitVec 32) (n : Nat) (h : v.toInt = (n : Int)) (a b : α) :
    Scalar.select (IntOp.cmpi .slt v 0#32) a b = b := by
  rw [cmpi_slt_zero_of_toInt v n h]
  exact select_zero a b

/-- The normalised index as a program computes it at one element, `select (cmpi slt v 0) (addi v N) v`, is `v`
    when `v`'s signed value is a natural number. -/
theorem normalised_of_toInt (v : BitVec 32) (n : Nat) (h : v.toInt = (n : Int)) (N : BitVec 32) :
    Scalar.select (IntOp.cmpi .slt v 0#32) (IntOp.addi v N) v = v :=
  select_slt_zero_of_toInt v n h _ _

/-- The same with the sum written as the words' sum (`IntOp.addi v N` is `v + N` by definition). -/
theorem normalised_of_toInt' (v : BitVec 32) (n : Nat) (h : v.toInt = (n : Int)) (N : BitVec 32) :
    Scalar.select (IntOp.cmpi .slt v 0#32) (v + N) v = v :=
  select_slt_zero_of_toInt v n h _ _

end Idealize.ShloMosaic.RowGatherScatter

end
-- ==== Proof.BridgeIds.lean ====
/-
  The two programs compute the graph's structure by the same operations: the edge lists with their self loops, the
  node degrees and their inverse square roots, and the start indices of the gathers. Here each of the kernel program's
  host stages is identified with the reference's stage of the same name; nothing is computed, the two terms are the same
  operations on the same arrays.
-/
import proofs.«126548_j70145405878842_2_alg».proof.Proof.KVal
import proofs.«126548_j70145405878842_2_alg».proof.Proof.RefRead
import proofs.«126548_j70145405878842_2_alg».proof.Proof.LibRowGatherScatter

set_option maxRecDepth 16384

noncomputable section

namespace Cert.Bridge

open Idealize.ShloMosaic Idealize.ShloMosaic.TcCoe Idealize.SL.Sem
open Cert.KernelIdeal.KVal Cert.ReferenceIdeal.Read

variable {F : FTy → Type} [FloatOps F]
variable (e : (⟨Cert.ReferenceIdeal.S2x3200000, .i32⟩ : BufTy).Contents (Elt F))

theorem row_eq : rowK (F := F) e = val_main_v3 (F := F) e := rfl
theorem col_eq : colK (F := F) e = val_main_v6 (F := F) e := rfl
theorem deg_eq : degK (F := F) e = val_main_v11 (F := F) e := rfl
theorem deg2_eq : val_main_v52 (F := F) e = val_main_v11 (F := F) e := rfl

theorem dinv_eq : dinvK (F := F) e = val_main_v15 (F := F) e := rfl
theorem dinv2_eq : val_main_v56 (F := F) e = val_main_v15 (F := F) e := rfl

/-- The senders as start indices: the four places the reference computes them, and the kernel's. -/
theorem normRow_eq : normK (F := F) (rowK (F := F) e) = val_main_v36 (F := F) e := rfl
theorem normRow_eq21 : val_main_v21 (F := F) e = val_main_v36 (F := F) e := rfl
theorem normRow_eq62 : val_main_v62 (F := F) e = val_main_v36 (F := F) e := rfl
theorem normRow_eq77 : val_main_v77 (F := F) e = val_main_v36 (F := F) e := rfl
/-- The receivers as start indices. -/
theorem normCol_eq : normK (F := F) (colK (F := F) e) = val_main_v28 (F := F) e := rfl
theorem normCol_eq69 : val_main_v69 (F := F) e = val_main_v28 (F := F) e := rfl

/-- The gathers' dimension numbers are well formed (a row gather of width 16, of width 64, an element gather). -/
theorem wf16 : GatherDims.WF ⟨2, ![100000, 16]⟩ ⟨2, ![3300000, 1]⟩ ⟨2, ![3300000, 16]⟩ [1] [0] [] [0] [] 1 ![1, 16] :=
  Cert.ReferenceIdeal.Gen.gather_S100000x16_S3300000x1_S3300000x16_1_0_n_n_0_1_116_wf
theorem wf64 : GatherDims.WF ⟨2, ![100000, 64]⟩ ⟨2, ![3300000, 1]⟩ ⟨2, ![3300000, 64]⟩ [1] [0] [] [0] [] 1 ![1, 64] :=
  Cert.ReferenceIdeal.Gen.gather_S100000x64_S3300000x1_S3300000x64_1_0_n_n_0_1_164_wf
theorem wfE : GatherDims.WF ⟨1, ![100000]⟩ ⟨2, ![3300000, 1]⟩ ⟨1, ![3300000]⟩ [] [0] [] [0] [] 1 ![1] :=
  Cert.ReferenceIdeal.Gen.gather_S100000_S3300000x1_S3300000_n_0_n_n_0_1_1_wf

/-- Given equal messages, the scatter-adds of the two programs are equal: the same zeros, the same receivers. -/
theorem agg16_of_msgs (H : (⟨Cert.KernelIdeal.S100000x16, .bf16⟩ : BufTy).Contents (Elt F))
    (x0 : (⟨Cert.ReferenceIdeal.S100000x128, .f32⟩ : BufTy).Contents (Elt F)) (x2 : (⟨Cert.ReferenceIdeal.S128x16, .f32⟩ : BufTy).Contents (Elt F))
    (h : msgs16K (F := F) H e = val_main_v40 (F := F) x0 e x2) : agg16K (F := F) H e = val_main_v43 (F := F) x0 e x2 := by
  unfold agg16K val_main_v43
  rw [h]
  rfl

theorem agg64_of_msgs (H : (⟨Cert.KernelIdeal.S100000x64, .bf16⟩ : BufTy).Contents (Elt F))
    (x0 : (⟨Cert.ReferenceIdeal.S100000x128, .f32⟩ : BufTy).Contents (Elt F)) (x2 : (⟨Cert.ReferenceIdeal.S128x16, .f32⟩ : BufTy).Contents (Elt F))
    (x3 : (⟨Cert.ReferenceIdeal.S16, .f32⟩ : BufTy).Contents (Elt F)) (x4 : (⟨Cert.ReferenceIdeal.S16x64, .f32⟩ : BufTy).Contents (Elt F))
    (h : msgs64K (F := F) H e = val_main_v81 (F := F) x0 e x2 x3 x4) : agg64K (F := F) H e = val_main_v84 (F := F) x0 e x2 x3 x4 := by
  unfold agg64K val_main_v84
  rw [h]
  rfl

open Idealize.ShloMosaic.RowGatherScatter in
theorem gather16K_dims : Cert.KernelIdeal.gather_S100000x16_S3300000x1_S3300000x16_1_0_n_n_0_1_116
    = rowGatherDims 100000 3300000 16 wf16 := rfl
open Idealize.ShloMosaic.RowGatherScatter in
theorem gather64K_dims : Cert.KernelIdeal.gather_S100000x64_S3300000x1_S3300000x64_1_0_n_n_0_1_164
    = rowGatherDims 100000 3300000 64 wf64 := rfl
open Idealize.ShloMosaic.RowGatherScatter in
theorem gatherEK_dims : Cert.KernelIdeal.gather_S100000_S3300000x1_S3300000_n_0_n_n_0_1_1
    = elemGatherDims 100000 3300000 wfE := rfl

open Idealize.ShloMosaic.RowGatherScatter in
theorem gather16_dims : Cert.ReferenceIdeal.gather_S100000x16_S3300000x1_S3300000x16_1_0_n_n_0_1_116
    = rowGatherDims 100000 3300000 16 wf16 := rfl
open Idealize.ShloMosaic.RowGatherScatter in
theorem gather64_dims : Cert.ReferenceIdeal.gather_S100000x64_S3300000x1_S3300000x64_1_0_n_n_0_1_164
    = rowGatherDims 100000 3300000 64 wf64 := rfl
open Idealize.ShloMosaic.RowGatherScatter in
theorem gatherE_dims : Cert.ReferenceIdeal.gather_S100000_S3300000x1_S3300000_n_0_n_n_0_1_1
    = elemGatherDims 100000 3300000 wfE := rfl

end Cert.Bridge

end
-- ==== Proof.HostIdx.lean ====
/-
  The host operations around the kernels, read at an index, for arbitrary extents; and the one place where the two
  programs' arithmetic differs within a layer.

  An edge `e` of the graph has a sender and a receiver; both programs look a node's row up by a gather whose start index is
  read signed and clamped into the node range, so whatever the integers in the edge list are, the two programs read the SAME
  rows. On edge `e` and feature `j` the kernel multiplies the sender's already-scaled row `(X·W)(s, j) · d(s)` by the
  receiver's factor `d(r)`; the reference multiplies the plain row `(X·W)(s, j)` by the product `d(s) · d(r)`. These are
  equal by associativity of the product of extended reals.
-/
import Idealize.ShloMosaic.PureOps.Ideal
import Idealize.ShloMosaic.Lib.ValueIdx
import Idealize.ShloMosaic.Lib.Pipeline.Value
import proofs.«126548_j70145405878842_2_alg».proof.Proof.Spec
import proofs.«126548_j70145405878842_2_alg».proof.Proof.LibRowGatherScatter

noncomputable section

namespace Cert.Gcn

open Idealize.ShloMosaic Idealize.ShloMosaic.ValueIdx Idealize.ShloMosaic.RowGatherScatter

variable {α : Type}

/-- A flat array of per-edge values broadcast to a column and then along the feature axis: entry `(e, j)` is the value
    of edge `e`. -/
theorem bcast_edge_factor {E D : Nat}
    (h1 : (⟨1, ![E]⟩ : Shape).BroadcastsInDim ⟨2, ![E, 1]⟩ ![0])
    (h2 : (⟨2, ![E, 1]⟩ : Shape).BroadcastsInDim ⟨2, ![E, D]⟩ ![0, 1])
    (v : (⟨1, ![E]⟩ : Shape).Idx → α) (e : Fin E) (j : Fin D) :
    broadcastInDim ⟨2, ![E, D]⟩ ![0, 1] h2 (broadcastInDim ⟨2, ![E, 1]⟩ ![0] h1 v) (ix2 e j) = v (ix1 e) := by
  refine (broadcastInDim_apply _ h2 _ (ix2 e j) (ix2 e (0 : Fin 1)) (fun a => ?_)).trans
    (broadcastInDim_apply _ h1 v (ix2 e (0 : Fin 1)) (ix1 e) (fun a => ?_))
  · match a with
    | ⟨0, _⟩ =>
      show e.val = if E = 1 then 0 else e.val
      split_ifs with hE
      · have := e.isLt; omega
      · rfl
    | ⟨1, _⟩ =>
      show 0 = if (1 : Nat) = 1 then 0 else j.val
      rw [if_pos rfl]
  · match a with
    | ⟨0, _⟩ =>
      show e.val = if E = 1 then 0 else e.val
      split_ifs with hE
      · have := e.isLt; omega
      · rfl

/-- A bias vector broadcast to a single row and then to every row: entry `(n, j)` is the bias of feature `j`. -/
theorem bcast_bias {N D : Nat}
    (h1 : (⟨1, ![D]⟩ : Shape).BroadcastsInDim ⟨2, ![1, D]⟩ ![1])
    (h2 : (⟨2, ![1, D]⟩ : Shape).BroadcastsInDim ⟨2, ![N, D]⟩ ![0, 1])
    (b : (⟨1, ![D]⟩ : Shape).Idx → α) (n : Fin N) (j : Fin D) :
    broadcastInDim ⟨2, ![N, D]⟩ ![0, 1] h2 (broadcastInDim ⟨2, ![1, D]⟩ ![1] h1 b) (ix2 n j) = b (ix1 j) := by
  refine (broadcastInDim_apply _ h2 _ (ix2 n j) (ix2 (0 : Fin 1) j) (fun a => ?_)).trans
    (broadcastInDim_apply _ h1 b (ix2 (0 : Fin 1) j) (ix1 j) (fun a => ?_))
  · match a with
    | ⟨0, _⟩ =>
      show 0 = if (1 : Nat) = 1 then 0 else n.val
      rw [if_pos rfl]
    | ⟨1, _⟩ =>
      show j.val = if D = 1 then 0 else j.val
      split_ifs with hD
      · have := j.isLt; omega
      · rfl
  · match a with
    | ⟨0, _⟩ =>
      show j.val = if D = 1 then 0 else j.val
      split_ifs with hD
      · have := j.isLt; omega
      · rfl

/-- A scalar broadcast to any shape: every entry is the scalar. -/
theorem bcast_scalar {s : Shape} (h : (⟨0, ![]⟩ : Shape).BroadcastsInDim s ![]) (x : (⟨0, ![]⟩ : Shape).Idx → α) (i : s.Idx) :
    broadcastInDim s ![] h x i = x ix0 :=
  broadcastInDim_apply _ h x i ix0 (fun a => a.elim0)

/-- A flat array reshaped to a column: entry `(n, 0)` is entry `n`. -/
theorem shapeCast_column {N : Nat} (v : (⟨1, ![N]⟩ : Shape).Idx → α)
    (h : (⟨1, ![N]⟩ : Shape).ShapeCasts ⟨2, ![N, 1]⟩) (n : Fin N) :
    shapeCast ⟨2, ![N, 1]⟩ v h (ix2 n (0 : Fin 1)) = v (ix1 n) := by
  refine shapeCast_apply v h _ (ix1 n) ?_
  rw [Shape.rowMajor_val_one, Shape.rowMajor_val_two]
  show n.val = n.val * 1 + 0
  omega

/-- A flat array reshaped to a single row: entry `(0, j)` is entry `j`. -/
theorem shapeCast_row {D : Nat} (b : (⟨1, ![D]⟩ : Shape).Idx → α)
    (h : (⟨1, ![D]⟩ : Shape).ShapeCasts ⟨2, ![1, D]⟩) (j : Fin D) :
    shapeCast ⟨2, ![1, D]⟩ b h (ix2 (0 : Fin 1) j) = b (ix1 j) := by
  refine shapeCast_apply b h _ (ix1 j) ?_
  rw [Shape.rowMajor_val_one, Shape.rowMajor_val_two]
  show j.val = 0 * D + j.val
  omega

/-- ONE EDGE'S MESSAGE IN THE TWO PROGRAMS. The kernel gathers a row of the scaled product and multiplies by the
    receiver's factor; the reference gathers a row of the plain product `H0 = X·W` and multiplies by the product of the
    sender's and the receiver's factors. Both gathers clamp the same start index, so they read the same node. -/
theorem edge_messages_eq {N E D K : Nat} (hN : 0 < N)
    (wfR : GatherDims.WF ⟨2, ![N, D]⟩ ⟨2, ![E, 1]⟩ ⟨2, ![E, D]⟩ [1] [0] [] [0] [] 1 ![1, D])
    (wfE : GatherDims.WF ⟨1, ![N]⟩ ⟨2, ![E, 1]⟩ ⟨1, ![E]⟩ [] [0] [] [0] [] 1 ![1])
    (X : Mat N K) (W : Mat K D) (dv : (⟨1, ![N]⟩ : Shape).Idx → EReal) (dcol : Mat N 1)
    (hd : ∀ n : Fin N, dcol (ix2 n (0 : Fin 1)) = dv (ix1 n))
    (H0 : Mat N D) (hH0 : ∀ (n : Fin N) (j : Fin D), H0 (ix2 n j) = ∑ k : Fin K, X (ix2 n k) * W (ix2 k j))
    (si ri : IVec ⟨2, ![E, 1]⟩ 32) (e : Fin E) (j : Fin D) :
    Host.gather (rowGatherDims N E D wfR) (scaledProduct X W dcol) si (ix2 e j)
        * Host.gather (elemGatherDims N E wfE) dv ri (ix1 e)
      = Host.gather (rowGatherDims N E D wfR) H0 si (ix2 e j)
        * (Host.gather (elemGatherDims N E wfE) dv si (ix1 e) * Host.gather (elemGatherDims N E wfE) dv ri (ix1 e)) := by
  rw [gather_rows_apply hN wfR, gather_rows_apply hN wfR, gather_elems_apply hN wfE, gather_elems_apply hN wfE]
  show scaledAt X W dcol (clampRow N hN (si (ix2 e (0 : Fin 1)))) j * _ = _
  unfold scaledAt
  rw [hH0, hd]
  exact edge_message_assoc _ _ _

/-- ALL THE MESSAGES OF A LAYER, as whole arrays. Left: the kernel program's form — gather rows of the scaled product
    (stored in a narrower float format and widened again, which changes nothing at the ideal values), times the
    receiver's factor broadcast along the features. Right: the reference's form — gather rows of the plain product, times
    the product of the two gathered factors broadcast along the features. -/
theorem layer_messages_eq {N E D K : Nat} {φ : FTy} (hφ : φ.bits < FTy.f32.bits) (hN : 0 < N)
    (wfR : GatherDims.WF ⟨2, ![N, D]⟩ ⟨2, ![E, 1]⟩ ⟨2, ![E, D]⟩ [1] [0] [] [0] [] 1 ![1, D])
    (wfE : GatherDims.WF ⟨1, ![N]⟩ ⟨2, ![E, 1]⟩ ⟨1, ![E]⟩ [] [0] [] [0] [] 1 ![1])
    (h1 : (⟨1, ![E]⟩ : Shape).BroadcastsInDim ⟨2, ![E, 1]⟩ ![0])
    (h2 : (⟨2, ![E, 1]⟩ : Shape).BroadcastsInDim ⟨2, ![E, D]⟩ ![0, 1])
    (X : Mat N K) (W : Mat K D) (dv : FVec Ideal ⟨1, ![N]⟩ .f32) (dcol : Mat N 1)
    (hd : ∀ n : Fin N, dcol (ix2 n (0 : Fin 1)) = dv (ix1 n))
    (H0 : FVec Ideal ⟨2, ![N, D]⟩ .f32) (hH0 : ∀ (n : Fin N) (j : Fin D), H0 (ix2 n j) = ∑ k : Fin K, X (ix2 n k) * W (ix2 k j))
    (si ri : IVec ⟨2, ![E, 1]⟩ 32) :
    mulf (extf .f32 (Host.gather (rowGatherDims N E D wfR) (show FVec Ideal ⟨2, ![N, D]⟩ φ from scaledProduct X W dcol) si) hφ)
        (broadcastInDim ⟨2, ![E, D]⟩ ![0, 1] h2 (broadcastInDim ⟨2, ![E, 1]⟩ ![0] h1 (Host.gather (elemGatherDims N E wfE) dv ri)))
      = mulf (Host.gather (rowGatherDims N E D wfR) H0 si)
        (broadcastInDim ⟨2, ![E, D]⟩ ![0, 1] h2 (broadcastInDim ⟨2, ![E, 1]⟩ ![0] h1
          (mulf (Host.gather (elemGatherDims N E wfE) dv si) (Host.gather (elemGatherDims N E wfE) dv ri)))) := by
  funext i
  obtain ⟨ε, j, rfl⟩ : ∃ (ε : Fin E) (j : Fin D), i = ix2 ε j := ⟨i 0, i 1, eq_ix2 i⟩
  show Host.gather (rowGatherDims N E D wfR) (scaledProduct X W dcol) si (ix2 ε j)
        * (broadcastInDim ⟨2, ![E, D]⟩ ![0, 1] h2 (broadcastInDim ⟨2, ![E, 1]⟩ ![0] h1 (Host.gather (elemGatherDims N E wfE) dv ri))) (ix2 ε j)
      = Host.gather (rowGatherDims N E D wfR) H0 si (ix2 ε j)
        * (broadcastInDim ⟨2, ![E, D]⟩ ![0, 1] h2 (broadcastInDim ⟨2, ![E, 1]⟩ ![0] h1
            (mulf (Host.gather (elemGatherDims N E wfE) dv si) (Host.gather (elemGatherDims N E wfE) dv ri)))) (ix2 ε j)
  rw [bcast_edge_factor, bcast_edge_factor]
  exact edge_messages_eq hN wfR wfE X W dv dcol hd H0 hH0 si ri ε j

end Cert.Gcn

end
-- ==== Proof.Layers.lean ====
/-
  The two graph-convolution layers of the kernel program against the reference's.

  Layer 1. The kernel program scatters the messages `(X·W1)(s, j)·d(s)·d(r)` formed from the first kernel's scaled
  product; the reference scatters `(X·W1)(s, j)·(d(s)·d(r))`. The messages agree edge by edge (the generic
  `layer_messages_eq`), both programs scatter them into zeros at the same receivers, so the aggregates agree.

  Layer 2. The same, with `X` replaced by the rectified, biased first aggregate `relu(a + b1)`: the reference's second
  product read at an entry is `∑ k, relu(a + b1)(n, k)·W2(k, j)`, which is what the second kernel's scaled product is
  built from.
-/
import proofs.«126548_j70145405878842_2_alg».proof.Proof.BridgeIds
import proofs.«126548_j70145405878842_2_alg».proof.Proof.HostIdx
import proofs.«126548_j70145405878842_2_alg».proof.Proof.KClosed

set_option maxRecDepth 16384

noncomputable section

namespace Cert.Bridge

open Idealize.ShloMosaic Idealize.ShloMosaic.TcCoe Idealize.SL.Sem Idealize.ShloMosaic.ValueIdx
open Idealize.ShloMosaic.RowGatherScatter
open Cert.KernelIdeal.KVal Cert.ReferenceIdeal.Read Cert.Gcn

variable (e : (⟨Cert.ReferenceIdeal.S2x3200000, .i32⟩ : BufTy).Contents (Elt Ideal))

/-- The inverse-square-root degrees as a column: entry `(n, 0)` is node `n`'s factor. -/
theorem dcol_apply (n : Fin 100000) : dcolK (F := Ideal) e (ix2 n (0 : Fin 1)) = val_main_v15 (F := Ideal) e (ix1 n) := by
  unfold dcolK
  rw [dinv_eq]
  generalize val_main_v15 (F := Ideal) e = dv
  exact shapeCast_column dv _ n

/-- `relu(A + b)` at an entry. -/
theorem reluBias_at {N K : Nat} (A : Mat N K) (b : Mat 1 K) (n : Fin N) (k : Fin K) :
    reluBias A b (ix2 n k) = max (A (ix2 n k) + b (ix2 (0 : Fin 1) k)) zeroF := rfl

/-! ## Layer 1 -/

/-- The reference's first product `X·W1`, read at an entry. -/
theorem h1_apply (x0 : (⟨Cert.ReferenceIdeal.S100000x128, .f32⟩ : BufTy).Contents (Elt Ideal)) (x2 : (⟨Cert.ReferenceIdeal.S128x16, .f32⟩ : BufTy).Contents (Elt Ideal)) (n : Fin 100000) (j : Fin 16) :
    val_main_v7 (F := Ideal) x0 x2 (ix2 n j) = ∑ k : Fin 128, x0 (ix2 n k) * x2 (ix2 k j) := by
  rw [val_main_v7_apply]
  refine Finset.sum_congr rfl fun k _ => ?_
  have hl : lidx_main_v7 (ix2 n j) k = ix2 n k := funext fun a => Fin.ext (by match a with | ⟨0, _⟩ => rfl | ⟨1, _⟩ => rfl)
  have hr : ridx_main_v7 (ix2 n j) k = ix2 k j := funext fun a => Fin.ext (by match a with | ⟨0, _⟩ => rfl | ⟨1, _⟩ => rfl)
  rw [hl, hr]

theorem msgs1_eq (x0 : (⟨Cert.ReferenceIdeal.S100000x128, .f32⟩ : BufTy).Contents (Elt Ideal)) (x2 : (⟨Cert.ReferenceIdeal.S128x16, .f32⟩ : BufTy).Contents (Elt Ideal)) :
    msgs16K (F := Ideal) (scaledProduct x0 x2 (dcolK (F := Ideal) e)) e = val_main_v40 (F := Ideal) x0 e x2 := by
  have hd := dcol_apply e
  have hH0 := h1_apply x0 x2
  unfold msgs16K val_main_v40 val_main_v39 val_main_v38 val_main_v30 val_main_v37 val_main_v22 val_main_v29
  rw [dinv_eq, normRow_eq, normCol_eq, gather16K_dims, gatherEK_dims, normRow_eq21, gather16_dims, gatherE_dims]
  generalize val_main_v7 (F := Ideal) x0 x2 = H0 at hH0 ⊢
  generalize dcolK (F := Ideal) e = dcol at hd ⊢
  generalize val_main_v15 (F := Ideal) e = dv at hd ⊢
  generalize val_main_v36 (F := Ideal) e = si
  generalize val_main_v28 (F := Ideal) e = ri
  exact layer_messages_eq (N := 100000) (E := 3300000) (D := 16) (K := 128) (φ := .bf16) _ (by decide) wf16 wfE _ _ x0 x2
    dv dcol hd H0 hH0 si ri

/-- The first layer's aggregates agree. -/
theorem layer1_eq (x0 : (⟨Cert.ReferenceIdeal.S100000x128, .f32⟩ : BufTy).Contents (Elt Ideal)) (x2 : (⟨Cert.ReferenceIdeal.S128x16, .f32⟩ : BufTy).Contents (Elt Ideal)) :
    layer1K x0 e x2 = val_main_v43 (F := Ideal) x0 e x2 :=
  agg16_of_msgs e _ x0 x2 (msgs1_eq e x0 x2)

/-! ## Layer 2 -/

/-- The reference's rectified, biased first aggregate at an entry is `relu(a + b1)` of the first aggregate `a`. -/
theorem relu1_apply (x0 : (⟨Cert.ReferenceIdeal.S100000x128, .f32⟩ : BufTy).Contents (Elt Ideal)) (x2 : (⟨Cert.ReferenceIdeal.S128x16, .f32⟩ : BufTy).Contents (Elt Ideal)) (x3 : (⟨Cert.ReferenceIdeal.S16, .f32⟩ : BufTy).Contents (Elt Ideal)) (n : Fin 100000) (k : Fin 16) :
    val_main_v47 (F := Ideal) x0 e x2 x3 (ix2 n k)
      = reluBias (val_main_v43 (F := Ideal) x0 e x2) (shapeCast _ x3 Cert.KernelIdeal.Facts₀.shapeCasts_S16_S1x16) (ix2 n k) := by
  have hb : val_main_v45 (F := Ideal) x3 (ix2 n k) = x3 (ix1 k) := by
    unfold val_main_v45 val_main_v44
    exact bcast_bias _ _ x3 n k
  have hz : val_main_call1_v0 (F := Ideal) (ix2 n k) = zeroF := by
    unfold val_main_call1_v0 val_main_call1_cst
    exact bcast_scalar _ _ _
  have hs : (shapeCast _ x3 Cert.KernelIdeal.Facts₀.shapeCasts_S16_S1x16 : Mat 1 16) (ix2 (0 : Fin 1) k) = x3 (ix1 k) := shapeCast_row x3 _ k
  unfold val_main_v47 val_main_v46
  generalize val_main_v43 (F := Ideal) x0 e x2 = a
  rw [maximumf_apply, addf_apply, reluBias_at, hb, hz, hs]

/-- The reference's second product, read at an entry. -/
theorem h2_apply (x0 : (⟨Cert.ReferenceIdeal.S100000x128, .f32⟩ : BufTy).Contents (Elt Ideal)) (x2 : (⟨Cert.ReferenceIdeal.S128x16, .f32⟩ : BufTy).Contents (Elt Ideal)) (x3 : (⟨Cert.ReferenceIdeal.S16, .f32⟩ : BufTy).Contents (Elt Ideal)) (x4 : (⟨Cert.ReferenceIdeal.S16x64, .f32⟩ : BufTy).Contents (Elt Ideal))
    (n : Fin 100000) (j : Fin 64) :
    val_main_v48 (F := Ideal) x0 e x2 x3 x4 (ix2 n j)
      = ∑ k : Fin 16, reluBias (val_main_v43 (F := Ideal) x0 e x2) (shapeCast _ x3 Cert.KernelIdeal.Facts₀.shapeCasts_S16_S1x16) (ix2 n k) * x4 (ix2 k j) := by
  rw [val_main_v48_apply]
  refine Finset.sum_congr rfl fun k _ => ?_
  have hl : lidx_main_v48 (ix2 n j) k = ix2 n k := funext fun a => Fin.ext (by match a with | ⟨0, _⟩ => rfl | ⟨1, _⟩ => rfl)
  have hr : ridx_main_v48 (ix2 n j) k = ix2 k j := funext fun a => Fin.ext (by match a with | ⟨0, _⟩ => rfl | ⟨1, _⟩ => rfl)
  rw [hl, hr, relu1_apply]

theorem msgs2_eq (x0 : (⟨Cert.ReferenceIdeal.S100000x128, .f32⟩ : BufTy).Contents (Elt Ideal)) (x2 : (⟨Cert.ReferenceIdeal.S128x16, .f32⟩ : BufTy).Contents (Elt Ideal)) (x3 : (⟨Cert.ReferenceIdeal.S16, .f32⟩ : BufTy).Contents (Elt Ideal)) (x4 : (⟨Cert.ReferenceIdeal.S16x64, .f32⟩ : BufTy).Contents (Elt Ideal)) :
    msgs64K (F := Ideal) (scaledProduct (reluBias (val_main_v43 (F := Ideal) x0 e x2) (shapeCast _ x3 Cert.KernelIdeal.Facts₀.shapeCasts_S16_S1x16)) x4
        (dcolK (F := Ideal) e)) e
      = val_main_v81 (F := Ideal) x0 e x2 x3 x4 := by
  have hd := dcol_apply e
  have hH0 := h2_apply e x0 x2 x3 x4
  unfold msgs64K val_main_v81 val_main_v80 val_main_v79 val_main_v71 val_main_v78 val_main_v63 val_main_v70
  rw [dinv_eq, normRow_eq, normCol_eq, gather64K_dims, gatherEK_dims, dinv2_eq, normRow_eq62, normRow_eq77, normCol_eq69,
    gather64_dims, gatherE_dims]
  generalize val_main_v48 (F := Ideal) x0 e x2 x3 x4 = H0 at hH0 ⊢
  generalize reluBias (val_main_v43 (F := Ideal) x0 e x2) (shapeCast _ x3 Cert.KernelIdeal.Facts₀.shapeCasts_S16_S1x16) = X at hH0 ⊢
  generalize dcolK (F := Ideal) e = dcol at hd ⊢
  generalize val_main_v15 (F := Ideal) e = dv at hd ⊢
  generalize val_main_v36 (F := Ideal) e = si
  generalize val_main_v28 (F := Ideal) e = ri
  exact layer_messages_eq (N := 100000) (E := 3300000) (D := 64) (K := 16) (φ := .bf16) _ (by decide) wf64 wfE _ _ X x4
    dv dcol hd H0 hH0 si ri

/-- The second layer's aggregates agree. -/
theorem layer2_eq (x0 : (⟨Cert.ReferenceIdeal.S100000x128, .f32⟩ : BufTy).Contents (Elt Ideal)) (x2 : (⟨Cert.ReferenceIdeal.S128x16, .f32⟩ : BufTy).Contents (Elt Ideal)) (x3 : (⟨Cert.ReferenceIdeal.S16, .f32⟩ : BufTy).Contents (Elt Ideal)) (x4 : (⟨Cert.ReferenceIdeal.S16x64, .f32⟩ : BufTy).Contents (Elt Ideal)) :
    layer2K (layer1K x0 e x2) e x3 x4 = val_main_v84 (F := Ideal) x0 e x2 x3 x4 := by
  rw [layer1_eq]
  exact agg64_of_msgs e _ x0 x2 x3 x4 (msgs2_eq e x0 x2 x3 x4)

end Cert.Bridge

end
-- ==== Proof.BridgeTail.lean ====
/-
  The tail of the bridge between the two programs: from the second layer's aggregate to the result.

  Both programs end with a read-out `relu(A + b)·W + f` of the second layer's aggregate `A`, row by row, a sum of
  all rows, and a log-softmax of the summed row. The reference sums the 100000 read-out rows at once; the kernel
  program sums each tile of 10000 consecutive rows first and then the ten tile sums. Addition of extended reals is
  commutative and associative, so the two sums agree (`Cert.Gcn.sum_tiles`); both start from the same zero word,
  which is never evaluated. The biases reach the rows by a broadcast in the reference and by a reshape to a single row
  in the kernel program's value: both read entry `j` of the bias vector. The log-softmax is the same operations on the
  pooled row in both programs.
-/
import proofs.«126548_j70145405878842_2_alg».proof.Proof.BridgeIds
import proofs.«126548_j70145405878842_2_alg».proof.Proof.KClosed
import proofs.«126548_j70145405878842_2_alg».proof.Proof.HostIdx
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.ValueIdx
open Cert.KernelIdeal.KVal Cert.ReferenceIdeal.Read

namespace Tail

/-- The sum of the ten per-tile partial sums at column `j`: the zero word plus the sum over the tiles. -/
theorem pooledK_apply (P : (⟨Cert.KernelIdeal.S10x1x2, .f32⟩ : BufTy).Contents (Elt Ideal)) (u : Fin 1) (j : Fin 2) :
    pooledK (F := Ideal) P (ix2 u j) = Cert.Gcn.zeroF + ∑ t : Fin 10, P (ix3 t u j) := by
  unfold pooledK
  simp only [Host.reduceAdd, Ideal.hostReduceAdd_def]
  rw [Ideal.hostReduceAdd_single Cert.KernelIdeal.Facts₀.reducesTo_S10x1x2_S1x2_d0 (by decide)]
  refine congrArg₂ (· + ·) rfl (Finset.sum_congr rfl fun k _ => congrArg P (funext fun a => Fin.ext ?_))
  match a with
  | ⟨0, _⟩ => rfl
  | ⟨1, _⟩ => rfl
  | ⟨2, _⟩ => rfl

/-- `relu(A + b)` at an entry, written out. -/
theorem reluBias_apply {N K : Nat} (A : Cert.Gcn.Mat N K) (b : Cert.Gcn.Mat 1 K) (n : Fin N) (k : Fin K) :
    Cert.Gcn.reluBias A b (ix2 n k) = max (A (ix2 n k) + b (ix2 0 k)) Cert.Gcn.zeroF := rfl

/-- One read-out row in the two programs. The reference adds the bias (a vector broadcast to a row and then to every
    row) to the second layer's aggregate, takes the maximum with the zero word, multiplies by the weights and adds the
    output bias (broadcast the same way); the kernel program's value reads the same biases through a reshape to a row. -/
theorem readout_eq (x0 : (⟨Cert.ReferenceIdeal.S100000x128, .f32⟩ : BufTy).Contents (Elt Ideal))
    (e : (⟨Cert.ReferenceIdeal.S2x3200000, .i32⟩ : BufTy).Contents (Elt Ideal))
    (x2 : (⟨Cert.ReferenceIdeal.S128x16, .f32⟩ : BufTy).Contents (Elt Ideal))
    (x3 : (⟨Cert.ReferenceIdeal.S16, .f32⟩ : BufTy).Contents (Elt Ideal))
    (x4 : (⟨Cert.ReferenceIdeal.S16x64, .f32⟩ : BufTy).Contents (Elt Ideal))
    (x5 : (⟨Cert.ReferenceIdeal.S64, .f32⟩ : BufTy).Contents (Elt Ideal))
    (x6 : (⟨Cert.ReferenceIdeal.S64x2, .f32⟩ : BufTy).Contents (Elt Ideal))
    (x7 : (⟨Cert.ReferenceIdeal.S2, .f32⟩ : BufTy).Contents (Elt Ideal)) (n : Fin 100000) (j : Fin 2) :
    val_main_v92 (F := Ideal) x0 e x2 x3 x4 x5 x6 x7 (ix2 n j)
      = Cert.Gcn.readoutAt (N := 100000) (K := 64) (D := 2) (val_main_v84 (F := Ideal) x0 e x2 x3 x4)
          (shapeCast _ x5 Cert.KernelIdeal.Facts₀.shapeCasts_S64_S1x64) x6
          (shapeCast _ x7 Cert.KernelIdeal.Facts₀.shapeCasts_S2_S1x2) n j := by
  rw [val_main_v92_apply, val_main_v89_apply, val_main_v91_apply, val_main_v90_apply]
  unfold Cert.Gcn.readoutAt
  refine congrArg₂ (· + ·) (Finset.sum_congr rfl fun k _ => congrArg₂ (· * ·) ?_ ?_) ?_
  · rw [val_main_v88_apply, val_main_v87_apply, val_main_v86_apply, val_main_v85_apply, val_main_call3_v0_apply]
    refine Eq.trans ?_ (reluBias_apply _ _ n k).symm
    rw [Cert.Gcn.shapeCast_row]
    refine congrArg₂ max (congrArg₂ (· + ·) (congrArg (val_main_v84 (F := Ideal) x0 e x2 x3 x4) ?_) (congrArg x5 ?_)) rfl
    · exact funext fun a => by match a with | ⟨0, _⟩ => rfl | ⟨1, _⟩ => rfl
    · exact funext fun a => by match a with | ⟨0, _⟩ => rfl
  · exact congrArg x6 (funext fun a => by match a with | ⟨0, _⟩ => rfl | ⟨1, _⟩ => rfl)
  · rw [Cert.Gcn.shapeCast_row]
    exact congrArg x7 (funext fun a => by match a with | ⟨0, _⟩ => rfl)

/-- Column `j` of the read-out row of node `n`, the nodes numbered through the ten tiles of 10000. -/
def readoutRow (x0 : (⟨Cert.ReferenceIdeal.S100000x128, .f32⟩ : BufTy).Contents (Elt Ideal))
    (e : (⟨Cert.ReferenceIdeal.S2x3200000, .i32⟩ : BufTy).Contents (Elt Ideal))
    (x2 : (⟨Cert.ReferenceIdeal.S128x16, .f32⟩ : BufTy).Contents (Elt Ideal))
    (x3 : (⟨Cert.ReferenceIdeal.S16, .f32⟩ : BufTy).Contents (Elt Ideal))
    (x4 : (⟨Cert.ReferenceIdeal.S16x64, .f32⟩ : BufTy).Contents (Elt Ideal))
    (x5 : (⟨Cert.ReferenceIdeal.S64, .f32⟩ : BufTy).Contents (Elt Ideal))
    (x6 : (⟨Cert.ReferenceIdeal.S64x2, .f32⟩ : BufTy).Contents (Elt Ideal))
    (x7 : (⟨Cert.ReferenceIdeal.S2, .f32⟩ : BufTy).Contents (Elt Ideal)) (j : Fin 2) (n : Fin (10 * 10000)) : EReal :=
  Cert.Gcn.readoutAt (N := 10 * 10000) (K := 64) (D := 2) (val_main_v84 (F := Ideal) x0 e x2 x3 x4)
    (shapeCast _ x5 Cert.KernelIdeal.Facts₀.shapeCasts_S64_S1x64) x6
    (shapeCast _ x7 Cert.KernelIdeal.Facts₀.shapeCasts_S2_S1x2) n j

end Tail

/-- THE POOLED ROW. The kernel program sums, tile by tile, the read-out rows of the second layer's aggregate and then
    the ten tile sums; the reference sums all 100000 read-out rows at once. Both start from the same zero word, and a
    sum over `10 · 10000` rows in tiles is the sum over the rows. -/
theorem pooled_eq (x0 : (⟨Cert.ReferenceIdeal.S100000x128, .f32⟩ : BufTy).Contents (Elt Ideal))
    (e : (⟨Cert.ReferenceIdeal.S2x3200000, .i32⟩ : BufTy).Contents (Elt Ideal))
    (x2 : (⟨Cert.ReferenceIdeal.S128x16, .f32⟩ : BufTy).Contents (Elt Ideal))
    (x3 : (⟨Cert.ReferenceIdeal.S16, .f32⟩ : BufTy).Contents (Elt Ideal))
    (x4 : (⟨Cert.ReferenceIdeal.S16x64, .f32⟩ : BufTy).Contents (Elt Ideal))
    (x5 : (⟨Cert.ReferenceIdeal.S64, .f32⟩ : BufTy).Contents (Elt Ideal))
    (x6 : (⟨Cert.ReferenceIdeal.S64x2, .f32⟩ : BufTy).Contents (Elt Ideal))
    (x7 : (⟨Cert.ReferenceIdeal.S2, .f32⟩ : BufTy).Contents (Elt Ideal)) :
    pooledK (F := Ideal) (partialsK (val_main_v84 (F := Ideal) x0 e x2 x3 x4) x5 x6 x7)
      = val_main_v94 (F := Ideal) x0 e x2 x3 x4 x5 x6 x7 := by
  funext i
  obtain ⟨u, j, rfl⟩ : ∃ (u : Fin 1) (j : Fin 2), i = ix2 u j := ⟨i 0, i 1, eq_ix2 (n0 := 1) (n1 := 2) i⟩
  rw [Tail.pooledK_apply, val_main_v94_apply, val_main_v93_apply]
  refine congrArg₂ (· + ·) rfl ?_
  refine (Finset.sum_congr rfl fun t _ =>
    (rfl : partialsK (val_main_v84 (F := Ideal) x0 e x2 x3 x4) x5 x6 x7 (ix3 t u j)
      = ∑ r : Fin 10000, Tail.readoutRow x0 e x2 x3 x4 x5 x6 x7 j (Cert.Gcn.tileRow t r))).trans ?_
  refine (Cert.Gcn.sum_tiles (T := 10) (R := 10000) (Tail.readoutRow x0 e x2 x3 x4 x5 x6 x7 j)).trans ?_
  show ∑ n : Fin 100000, Tail.readoutRow x0 e x2 x3 x4 x5 x6 x7 j n = _
  refine Finset.sum_congr rfl fun n _ => ?_
  refine Eq.trans ?_ ((Tail.readout_eq x0 e x2 x3 x4 x5 x6 x7 n j).symm.trans ?_)
  · rfl
  · exact congrArg (val_main_v92 (F := Ideal) x0 e x2 x3 x4 x5 x6 x7)
      (funext fun a => by match a with | ⟨0, _⟩ => rfl | ⟨1, _⟩ => rfl)

/-- The log-softmax of the pooled row: the two programs apply the same operations to it. -/
theorem lsm_eq (x0 : (⟨Cert.ReferenceIdeal.S100000x128, .f32⟩ : BufTy).Contents (Elt Ideal))
    (e : (⟨Cert.ReferenceIdeal.S2x3200000, .i32⟩ : BufTy).Contents (Elt Ideal))
    (x2 : (⟨Cert.ReferenceIdeal.S128x16, .f32⟩ : BufTy).Contents (Elt Ideal))
    (x3 : (⟨Cert.ReferenceIdeal.S16, .f32⟩ : BufTy).Contents (Elt Ideal))
    (x4 : (⟨Cert.ReferenceIdeal.S16x64, .f32⟩ : BufTy).Contents (Elt Ideal))
    (x5 : (⟨Cert.ReferenceIdeal.S64, .f32⟩ : BufTy).Contents (Elt Ideal))
    (x6 : (⟨Cert.ReferenceIdeal.S64x2, .f32⟩ : BufTy).Contents (Elt Ideal))
    (x7 : (⟨Cert.ReferenceIdeal.S2, .f32⟩ : BufTy).Contents (Elt Ideal)) :
    lsmK (F := Ideal) (val_main_v94 (F := Ideal) x0 e x2 x3 x4 x5 x6 x7)
      = val_main_v95 (F := Ideal) x0 e x2 x3 x4 x5 x6 x7 := rfl

end Cert.Bridge

end
-- ==== Proof.Final.lean ====
/-
  The kernel program's closed-form value is the reference's result, as functions of the eight argument arrays: the two
  layers' aggregates agree (associativity of the product on each edge), the pooled read-out sums agree (a sum over
  all nodes against the sum of ten tile sums), and both programs finish with the same log-softmax.
-/
import proofs.«126548_j70145405878842_2_alg».proof.Proof.Layers
import proofs.«126548_j70145405878842_2_alg».proof.Proof.BridgeTail

noncomputable section

namespace Cert.Bridge

open Idealize.ShloMosaic Idealize.ShloMosaic.TcCoe Idealize.SL.Sem
open Cert.KernelIdeal.KVal Cert.ReferenceIdeal.Read

theorem value_eq (x0 : (⟨Cert.ReferenceIdeal.S100000x128, .f32⟩ : BufTy).Contents (Elt Ideal)) (e : (⟨Cert.ReferenceIdeal.S2x3200000, .i32⟩ : BufTy).Contents (Elt Ideal)) (x2 : (⟨Cert.ReferenceIdeal.S128x16, .f32⟩ : BufTy).Contents (Elt Ideal))
    (x3 : (⟨Cert.ReferenceIdeal.S16, .f32⟩ : BufTy).Contents (Elt Ideal)) (x4 : (⟨Cert.ReferenceIdeal.S16x64, .f32⟩ : BufTy).Contents (Elt Ideal)) (x5 : (⟨Cert.ReferenceIdeal.S64, .f32⟩ : BufTy).Contents (Elt Ideal)) (x6 : (⟨Cert.ReferenceIdeal.S64x2, .f32⟩ : BufTy).Contents (Elt Ideal)) (x7 : (⟨Cert.ReferenceIdeal.S2, .f32⟩ : BufTy).Contents (Elt Ideal)) :
    kernelValue x0 e x2 x3 x4 x5 x6 x7 = val_main_v95 (F := Ideal) x0 e x2 x3 x4 x5 x6 x7 := by
  unfold kernelValue
  rw [layer2_eq, pooled_eq, lsm_eq]

end Cert.Bridge

end
-- ==== Proof.lean ====
/-
  The certificate: the Pallas graph-convolution kernel program and its jnp reference compute the same log-softmax row,
  as extended reals, from the same arguments.

  Both programs build the edge lists (the given edges and one self loop per node), the node degrees and their inverse
  square roots `d` in the same way. A layer of the reference forms `H = X·W` and sends along every edge `s → r` the message
  `H(s)·(d(s)·d(r))`; the kernel program's first two kernels form the scaled product `H(s)·d(s)` tile by tile and the
  host then sends `(H(s)·d(s))·d(r)`. The product of extended reals is associative, so the messages, and with them the
  per-node sums, agree. The read-out sums `relu(a + b2)·fcW + fcb` over all nodes; the third kernel sums each tile of
  10000 nodes and the host adds the ten tile sums, which is the same sum in another grouping. Both programs end with the
  same log-softmax of the pooled row. No step needs the inputs to be finite, so the precondition is never opened.

  The three frames: the word-level and the idealized kernel programs by their generated frame proofs; the reference by
  its run with the result dropped. The idealization rewrote nothing, so `preserves` is `True`.
-/
import proofs.«126548_j70145405878842_2_alg».proof.Defs
import proofs.«126548_j70145405878842_2_alg».proof.Proof.Gen.Kernel
import proofs.«126548_j70145405878842_2_alg».proof.Proof.Gen.Kernel.Skeleton
import proofs.«126548_j70145405878842_2_alg».proof.Proof.Gen.Kernel.Launch
import proofs.«126548_j70145405878842_2_alg».proof.Proof.Gen.Kernel.Points
import proofs.«126548_j70145405878842_2_alg».proof.Proof.Gen.Kernel.Frame
import proofs.«126548_j70145405878842_2_alg».proof.Proof.Gen.KernelIdeal
import proofs.«126548_j70145405878842_2_alg».proof.Proof.Gen.KernelIdeal.Skeleton
import proofs.«126548_j70145405878842_2_alg».proof.Proof.Gen.KernelIdeal.Launch
import proofs.«126548_j70145405878842_2_alg».proof.Proof.Gen.KernelIdeal.Points
import proofs.«126548_j70145405878842_2_alg».proof.Proof.Gen.KernelIdeal.Frame
import proofs.«126548_j70145405878842_2_alg».proof.Proof.Gen.ReferenceIdeal
import proofs.«126548_j70145405878842_2_alg».proof.Proof.Gen.Pre_finite_inputs
import proofs.«126548_j70145405878842_2_alg».proof.Proof.RefRun
import proofs.«126548_j70145405878842_2_alg».proof.Proof.RefRead
import proofs.«126548_j70145405878842_2_alg».proof.Proof.KRun
import proofs.«126548_j70145405878842_2_alg».proof.Proof.KValue
import proofs.«126548_j70145405878842_2_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories agreeing on the arguments, the idealized kernel program ends with its result at `kernelValue` of
    the arguments and the reference with its result at its last stage of the same arguments: one function. -/
theorem algebraic : Cert.algebraic_KernelIdeal_ReferenceIdeal := by
  intro m ρ m' ρ' _ hagree
  refine ⟨fun c => Cert.KernelIdeal.KVal.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KFold.W10_value m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v95_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.value_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
